-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S1000000 : Shape := ⟨1, ![1000000]⟩
abbrev S1000000x5 : Shape := ⟨2, ![1000000, 5]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1000000x5 : S_.BroadcastsInDim S1000000x5 (![] : Fin 0 → Fin S1000000x5.rank)
  reducesTo_S1000000x5_S_d0_1 : S1000000x5.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg5 : FVec F S64 .f32) (main_arg6 : FVec F S2x64x64 .f32) (main_arg7 : FVec F S2x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S50000x64 .f32) (main_arg1 : IVec S2x1000000 32) (main_arg2 : FVec F S1000000 .f32) (main_arg3 : FVec F S1000000x5 .f32) (main_arg4 : FVec F S64x64 .f32) (main_arg5 : FVec F S64 .f32) (main_arg6 : FVec F S2x64x64 .f32) (main_arg7 : FVec F S2x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000x5 .f32 := Host.absf main_arg3
  let main_cst_2 : FVec F S_ .f32 := constant S_ .f32 0x7F800000#32
  let main_v10 : FVec F S1000000x5 .f32 := broadcastInDim S1000000x5 ![] bcast_S_S1000000x5 main_cst_2
  let main_v11 : IVec S1000000x5 1 := cmpf .olt main_v9 main_v10
  let main_c_3 : IVec S_ 1 := constantI S_ 1 1#1
  let main_v12 : IVec S_ 1 := (fun x v => Host.reduce IntOp.andi x v reducesTo_S1000000x5_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x1000000 : Shape := ⟨2, ![2, 1000000]⟩
abbrev S1000000 : Shape := ⟨1, ![1000000]⟩
abbrev S1000000x5 : Shape := ⟨2, ![1000000, 5]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S25000x128 : Shape := ⟨2, ![25000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1x64x64 : Shape := ⟨3, ![1, 64, 64]⟩
abbrev S1000000x64 : Shape := ⟨2, ![1000000, 64]⟩
abbrev S1x64 : Shape := ⟨2, ![1, 64]⟩

abbrev nBuf : Space → Nat
  | .hbm => 127
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000, .f32⟩
  | .hbm, ⟨3, _⟩ => ⟨S1000000x5, .f32⟩
  | .hbm, ⟨4, _⟩ => ⟨S64x64, .f32⟩
  | .hbm, ⟨5, _⟩ => ⟨S64, .f32⟩
  | .hbm, ⟨6, _⟩ => ⟨S2x64x64, .f32⟩
  | .hbm, ⟨7, _⟩ => ⟨S2x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S50000, .f32⟩
  | .hbm, ⟨14, _⟩ => ⟨S1000000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000, .f32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .f32⟩
  | .hbm, ⟨50, _⟩ => ⟨S1000000, .f32⟩
  | .hbm, ⟨51, _⟩ => ⟨S25000x128, .f32⟩
  | .hbm, ⟨52, _⟩ => ⟨S_, .f32⟩
  | .hbm, ⟨53, _⟩ => ⟨S64x64, .f32⟩
  | .hbm, ⟨54, _⟩ => ⟨S64x128, .f32⟩
  | .hbm, ⟨55, _⟩ => ⟨S64x128, .f32⟩
  | .hbm, ⟨56, _⟩ => ⟨S128x128, .f32⟩
  | .hbm, ⟨57, _⟩ => ⟨S128, .f32⟩
  | .hbm, ⟨58, _⟩ => ⟨S1x128, .f32⟩
  | .hbm, ⟨59, _⟩ => ⟨S25000x128, .f32⟩
  | .hbm, ⟨60, _⟩ => ⟨S1x64x64, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x128, .f32⟩
  | .hbm, ⟨65, _⟩ => ⟨S64x128, .f32⟩
  | .hbm, ⟨66, _⟩ => ⟨S128x128, .f32⟩
  | .hbm, ⟨67, _⟩ => ⟨S25000x128, .f32⟩
  | .hbm, ⟨68, _⟩ => ⟨S50000x64, .f32⟩
  | .hbm, ⟨69, _⟩ => ⟨S1000000x1, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x64, .f32⟩
  | .hbm, ⟨79, _⟩ => ⟨S1000000x64, .f32⟩
  | .hbm, ⟨80, _⟩ => ⟨S1000000x64, .f32⟩
  | .hbm, ⟨81, _⟩ => ⟨S_, .f32⟩
  | .hbm, ⟨82, _⟩ => ⟨S50000x64, .f32⟩
  | .hbm, ⟨83, _⟩ => ⟨S1000000x1, .i32⟩
  | .hbm, ⟨84, _⟩ => ⟨S50000x64, .f32⟩
  | .hbm, ⟨85, _⟩ => ⟨S25000x128, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S64, .f32⟩
  | .hbm, ⟨90, _⟩ => ⟨S128, .f32⟩
  | .hbm, ⟨91, _⟩ => ⟨S1x128, .f32⟩
  | .hbm, ⟨92, _⟩ => ⟨S25000x128, .f32⟩
  | .hbm, ⟨93, _⟩ => ⟨S1x64x64, .f32⟩
  | .hbm, ⟨94, _⟩ => ⟨S64x64, .f32⟩
  | .hbm, ⟨95, _⟩ => ⟨S_, .f32⟩
  | .hbm, ⟨96, _⟩ => ⟨S64x64, .f32⟩
  | .hbm, ⟨97, _⟩ => ⟨S64x128, .f32⟩
  | .hbm, ⟨98, _⟩ => ⟨S64x128, .f32⟩
  | .hbm, ⟨99, _⟩ => ⟨S128x128, .f32⟩
  | .hbm, ⟨100, _⟩ => ⟨S25000x128, .f32⟩
  | .hbm, ⟨101, _⟩ => ⟨S50000x64, .f32⟩
  | .hbm, ⟨102, _⟩ => ⟨S1000000x1, .f32⟩
  | .hbm, ⟨103, _⟩ => ⟨S_, .i32⟩
  | .hbm, ⟨104, _⟩ => ⟨S1000000, .i32⟩
  | .hbm, ⟨105, _⟩ => ⟨S1000000, .i1⟩
  | .hbm, ⟨106, _⟩ => ⟨S_, .i32⟩
  | .hbm, ⟨107, _⟩ => ⟨S1000000, .i32⟩
  | .hbm, ⟨108, _⟩ => ⟨S1000000, .i32⟩
  | .hbm, ⟨109, _⟩ => ⟨S1000000, .i32⟩
  | .hbm, ⟨110, _⟩ => ⟨S1000000x1, .i32⟩
  | .hbm, ⟨111, _⟩ => ⟨S1000000x64, .f32⟩
  | .hbm, ⟨112, _⟩ => ⟨S1000000x64, .f32⟩
  | .hbm, ⟨113, _⟩ => ⟨S1000000x64, .f32⟩
  | .hbm, ⟨114, _⟩ => ⟨S_, .f32⟩
  | .hbm, ⟨115, _⟩ => ⟨S50000x64, .f32⟩
  | .hbm, ⟨116, _⟩ => ⟨S1000000x1, .i32⟩
  | .hbm, ⟨117, _⟩ => ⟨S50000x64, .f32⟩
  | .hbm, ⟨118, _⟩ => ⟨S25000x128, .f32⟩
  | .hbm, ⟨119, _⟩ => ⟨S1x64, .f32⟩
  | .hbm, ⟨120, _⟩ => ⟨S64, .f32⟩
  | .hbm, ⟨121, _⟩ => ⟨S1x64, .f32⟩
  | .hbm, ⟨122, _⟩ => ⟨S64, .f32⟩
  | .hbm, ⟨123, _⟩ => ⟨S128, .f32⟩
  | .hbm, ⟨124, _⟩ => ⟨S1x128, .f32⟩
  | .hbm, ⟨125, _⟩ => ⟨S25000x128, .f32⟩
  | .hbm, ⟨126, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  shapeCasts_S50000x64_S25000x128 : S50000x64.ShapeCasts S25000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x64x64_S1x64x64_0_0_0 : S2x64x64.Slices ![0, 0, 0] S1x64x64
  shapeCasts_S1x64x64_S64x64 : S1x64x64.ShapeCasts S64x64
  shapeCasts_S25000x128_S50000x64 : S25000x128.ShapeCasts S50000x64
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S5000x128_S128x128_S5000x128_1_0_0_1_n_n_wf : DotDims.WF S5000x128 S128x128 S5000x128 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .f32 = 32 ∨ (Rect.block (s := S25000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S25000x128.size a
  hwx2_3 : ∀ i : grid2.Coords, EltTy.bits .f32 = 32 ∨ (Rect.block (s := S25000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S25000x128.size a
  hwx3_2 : ∀ i : grid3.Coords, EltTy.bits .f32 = 32 ∨ (Rect.block (s := S25000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S25000x128.size a
  hwx4_1 : ∀ i : grid4.Coords, EltTy.bits .f32 = 32 ∨ (Rect.block (s := S25000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S25000x128.size a
  hwx4_3 : ∀ i : grid4.Coords, EltTy.bits .f32 = 32 ∨ (Rect.block (s := S25000x128) S5000x128.size (cc4_transform_3 i) (hinb4_3 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S1000000 : Shape := ⟨1, ![1000000]⟩
abbrev S1000000x5 : Shape := ⟨2, ![1000000, 5]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S1x1000000 : Shape := ⟨2, ![1, 1000000]⟩
abbrev S_ : Shape := ⟨0, ![]⟩
abbrev S50000 : Shape := ⟨1, ![50000]⟩
abbrev S1000000x1 : Shape := ⟨2, ![1000000, 1]⟩
abbrev S1x64 : Shape := ⟨2, ![1, 64]⟩
abbrev S1x64x64 : Shape := ⟨3, ![1, 64, 64]⟩
abbrev S1000000x64 : Shape := ⟨2, ![1000000, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000, .f32⟩
  | .hbm, ⟨3, _⟩ => ⟨S1000000x5, .f32⟩
  | .hbm, ⟨4, _⟩ => ⟨S64x64, .f32⟩
  | .hbm, ⟨5, _⟩ => ⟨S64, .f32⟩
  | .hbm, ⟨6, _⟩ => ⟨S2x64x64, .f32⟩
  | .hbm, ⟨7, _⟩ => ⟨S2x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S50000, .f32⟩
  | .hbm, ⟨14, _⟩ => ⟨S1000000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000, .f32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .f32⟩
  | .hbm, ⟨50, _⟩ => ⟨S1000000, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S1x64x64, .f32⟩
  | .hbm, ⟨59, _⟩ => ⟨S64x64, .f32⟩
  | .hbm, ⟨60, _⟩ => ⟨S50000x64, .f32⟩
  | .hbm, ⟨61, _⟩ => ⟨S1000000x1, .f32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S_, .f32⟩
  | .hbm, ⟨74, _⟩ => ⟨S50000x64, .f32⟩
  | .hbm, ⟨75, _⟩ => ⟨S1000000x1, .i32⟩
  | .hbm, ⟨76, _⟩ => ⟨S50000x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S1x64x64, .f32⟩
  | .hbm, ⟨87, _⟩ => ⟨S64x64, .f32⟩
  | .hbm, ⟨88, _⟩ => ⟨S50000x64, .f32⟩
  | .hbm, ⟨89, _⟩ => ⟨S1000000x1, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x64, .f32⟩
  | .hbm, ⟨99, _⟩ => ⟨S1000000x64, .f32⟩
  | .hbm, ⟨100, _⟩ => ⟨S1000000x64, .f32⟩
  | .hbm, ⟨101, _⟩ => ⟨S_, .f32⟩
  | .hbm, ⟨102, _⟩ => ⟨S50000x64, .f32⟩
  | .hbm, ⟨103, _⟩ => ⟨S1000000x1, .i32⟩
  | .hbm, ⟨104, _⟩ => ⟨S50000x64, .f32⟩
  | .hbm, ⟨105, _⟩ => ⟨S1x64, .f32⟩
  | .hbm, ⟨106, _⟩ => ⟨S64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .f32⟩
  | .hbm, ⟨113, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_cst : Ref sig .tc := ⟨.hbm, 55, rfl⟩
abbrev main_call2_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call3_cst : Ref sig .tc := ⟨.hbm, 82, rfl⟩
abbrev main_call3_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call4_cst : Ref sig .tc := ⟨.hbm, 110, rfl⟩
abbrev main_call4_v0 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000 : S_.BroadcastsInDim S50000 (![] : Fin 0 → Fin S50000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  bcast_S1000000x1_S1000000x64_0_1 : S1000000x1.BroadcastsInDim S1000000x64 (![0, 1] : Fin 2 → Fin S1000000x64.rank)
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

class Facts : Prop extends Facts₀ where

variable [Facts]
-- ==== Proof.KernelRun.lean ====
/-
  The idealized kernel program's run with its result named.

  @main is fifteen segments: ten stretches of host operations and five pipelined regions. The contents of every
  buffer at each segment boundary are a fold from the launch memory; the last boundary's contents are `W15`. Every
  weakly fair execution terminates without a fault in a state whose unscoped buffers hold `W15`: in particular the
  result buffer holds `W15` read at the result, and the eight argument arrays are as launched.
-/
import proofs.«136715_j45449343926354_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v96 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.Run

end
-- ==== Proof.Pairing.lean ====
/-
  Lane-dense pairing of node rows, read index by index.

  The kernel views the node-major array X : [50000, 64] as X2 : [25000, 128] by a contiguous reshape: entry (r, q) of X2
  is entry (2 r + q / 64, q mod 64) of X — two consecutive node rows laid side by side. A 64 x 64 weight W becomes
  the 128 x 128 block-diagonal matrix diag(W, W): entry (k, q) is W (k mod 64, q mod 64) when k and q lie in the same
  half and 0 otherwise; a bias b : [64] becomes the row (b, b) : [1, 128], entry (0, q) being b (q mod 64).
  With these, row r of X2 times diag(W, W), at column q, is a sum of 128 products of which the 64 in the other half
  vanish (a product with 0 is 0 on the extended reals, whatever the other factor), and the remaining 64 are
  row 2 r + q / 64 of X times column q mod 64 of W: the product X W read at the paired index.
-/
import proofs.«136715_j45449343926354_2_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.Pairing

open Idealize.ShloMosaic Idealize.ShloMosaic.ValueIdx Cert.KernelIdeal Cert.KernelIdeal.Gen

/-! ## The reshape [50000, 64] -> [25000, 128] at an index -/

/-- The node-major index a lane-dense index (r, q) names: node 2 r + q / 64, channel q mod 64. -/
def pairIdx (j : S25000x128.Idx) : S50000x64.Idx :=
  ix2 ⟨2 * (j 0).val + (j 1).val / 64, by have h0 := idx2_lt0 j; have h1 := idx2_lt1 j; omega⟩
      ⟨(j 1).val % 64, Nat.mod_lt _ (by decide)⟩

theorem pairIdx_val0 (j : S25000x128.Idx) : (pairIdx j 0).val = 2 * (j 0).val + (j 1).val / 64 := rfl
theorem pairIdx_val1 (j : S25000x128.Idx) : (pairIdx j 1).val = (j 1).val % 64 := rfl

/-- The contiguous reshape to the lane-dense layout reads the node-major array at the paired index. -/
theorem shapeCast_pair {α : Type} (X : S50000x64.Idx → α) (h : S50000x64.ShapeCasts S25000x128) (j : S25000x128.Idx) :
    shapeCast S25000x128 X h j = X (pairIdx j) := by
  refine shapeCast_apply X h j (pairIdx j) ?_
  rw [Shape.rowMajor_val_two, Shape.rowMajor_val_two]
  show (2 * (j 0).val + (j 1).val / 64) * 64 + (j 1).val % 64 = (j 0).val * 128 + (j 1).val
  omega

/-! ## The block-diagonal weight diag(W, W) at an index -/

/-- The 64 x 64 zero matrix the block-diagonal weight is padded with. -/
def zeros64 : FVec Ideal S64x64 .f32 :=
  broadcastInDim S64x64 ![] bcast_S_S64x64 (constant S_ .f32 0x00000000#32)

theorem zeros64_apply (i : S64x64.Idx) : zeros64 i = 0 := by
  show Ideal.ofBits .f32 0x00000000#32 = 0
  exact Ideal.ofBits_zero_f32

/-- diag(W, W): the rows (W, 0) above the rows (0, W). -/
def blockDiag (W : FVec Ideal S64x64 .f32) : FVec Ideal S128x128 .f32 :=
  concatenate S128x128 0
    [⟨S64x128, concatenate S64x128 1 [⟨S64x64, W⟩, ⟨S64x64, zeros64⟩] concatenates_S64x64_S64x64_S64x128_d1⟩,
     ⟨S64x128, concatenate S64x128 1 [⟨S64x64, zeros64⟩, ⟨S64x64, W⟩] concatenates_S64x64_S64x64_S64x128_d1⟩]
    concatenates_S64x128_S64x128_S128x128_d0

/-- A row block (A, B) : [64, 128] at (k, q): A (k, q) in the left half, B (k, q - 64) in the right half. -/
theorem rowPair_apply (A B : FVec Ideal S64x64 .f32) (k : Fin 64) (q : Fin 128) :
    concatenate S64x128 1 [⟨S64x64, A⟩, ⟨S64x64, B⟩] concatenates_S64x64_S64x64_S64x128_d1 (ix2 k q)
      = if q.val < 64 then A (ix2 k ⟨q.val % 64, Nat.mod_lt _ (by decide)⟩)
        else B (ix2 k ⟨q.val % 64, Nat.mod_lt _ (by decide)⟩) := by
  by_cases hq : q.val < 64
  · rw [if_pos hq]
    refine concatenate_pair_apply_left (1 : Fin S64x128.rank) A B concatenates_S64x64_S64x64_S64x128_d1 (ix2 k q) rfl
      (ix2 k ⟨q.val % 64, Nat.mod_lt _ (by decide)⟩) (fun b => ?_)
    match b with
    | ⟨0, _⟩ => rfl
    | ⟨1, _⟩ => show q.val % 64 = q.val; omega
  · rw [if_neg hq]
    refine concatenate_pair_apply_right (1 : Fin S64x128.rank) A B concatenates_S64x64_S64x64_S64x128_d1 (ix2 k q) rfl rfl
      (ix2 k ⟨q.val % 64, Nat.mod_lt _ (by decide)⟩) (fun b hb => ?_) ?_
    · match b with
      | ⟨0, _⟩ => rfl
      | ⟨1, _⟩ => exact absurd rfl hb
    · show q.val % 64 + 64 = q.val
      have := q.isLt; omega

/-- diag(W, W) at (k, q): W (k mod 64, q mod 64) when k and q are in the same half, 0 otherwise. -/
theorem blockDiag_apply (W : FVec Ideal S64x64 .f32) (k q : Fin 128) :
    blockDiag W (ix2 k q)
      = if k.val / 64 = q.val / 64 then W (ix2 ⟨k.val % 64, Nat.mod_lt _ (by decide)⟩ ⟨q.val % 64, Nat.mod_lt _ (by decide)⟩)
        else 0 := by
  unfold blockDiag
  by_cases hk : k.val < 64
  · have e : concatenate S128x128 0
        [⟨S64x128, concatenate S64x128 1 [⟨S64x64, W⟩, ⟨S64x64, zeros64⟩] concatenates_S64x64_S64x64_S64x128_d1⟩,
         ⟨S64x128, concatenate S64x128 1 [⟨S64x64, zeros64⟩, ⟨S64x64, W⟩] concatenates_S64x64_S64x64_S64x128_d1⟩]
        concatenates_S64x128_S64x128_S128x128_d0 (ix2 k q)
        = concatenate S64x128 1 [⟨S64x64, W⟩, ⟨S64x64, zeros64⟩] concatenates_S64x64_S64x64_S64x128_d1
            (ix2 ⟨k.val % 64, Nat.mod_lt _ (by decide)⟩ q) := by
      refine concatenate_pair_apply_left (0 : Fin S128x128.rank) _ _ concatenates_S64x128_S64x128_S128x128_d0 (ix2 k q) rfl
        (ix2 ⟨k.val % 64, Nat.mod_lt _ (by decide)⟩ q) (fun b => ?_)
      match b with
      | ⟨0, _⟩ => show k.val % 64 = k.val; omega
      | ⟨1, _⟩ => rfl
    rw [e, rowPair_apply]
    by_cases hq : q.val < 64
    · rw [if_pos hq, if_pos (by omega)]
    · rw [if_neg hq, if_neg (by omega), zeros64_apply]
  · have e : concatenate S128x128 0
        [⟨S64x128, concatenate S64x128 1 [⟨S64x64, W⟩, ⟨S64x64, zeros64⟩] concatenates_S64x64_S64x64_S64x128_d1⟩,
         ⟨S64x128, concatenate S64x128 1 [⟨S64x64, zeros64⟩, ⟨S64x64, W⟩] concatenates_S64x64_S64x64_S64x128_d1⟩]
        concatenates_S64x128_S64x128_S128x128_d0 (ix2 k q)
        = concatenate S64x128 1 [⟨S64x64, zeros64⟩, ⟨S64x64, W⟩] concatenates_S64x64_S64x64_S64x128_d1
            (ix2 ⟨k.val % 64, Nat.mod_lt _ (by decide)⟩ q) := by
      refine concatenate_pair_apply_right (0 : Fin S128x128.rank) _ _ concatenates_S64x128_S64x128_S128x128_d0 (ix2 k q) rfl rfl
        (ix2 ⟨k.val % 64, Nat.mod_lt _ (by decide)⟩ q) (fun b hb => ?_) ?_
      · match b with
        | ⟨0, _⟩ => exact absurd rfl hb
        | ⟨1, _⟩ => rfl
      · show k.val % 64 + 64 = k.val
        have := k.isLt; omega
    rw [e, rowPair_apply]
    have := k.isLt
    by_cases hq : q.val < 64
    · rw [if_pos hq, if_neg (by omega), zeros64_apply]
    · rw [if_neg hq, if_pos (by have := q.isLt; omega)]

/-! ## The doubled bias (b, b) as a row [1, 128] at an index -/

/-- (b, b) : [128], reshaped to one row. -/
def bias2 (b : FVec Ideal S64 .f32) : FVec Ideal S1x128 .f32 :=
  shapeCast S1x128 (concatenate S128 0 [⟨S64, b⟩, ⟨S64, b⟩] concatenates_S64_S64_S128_d0) shapeCasts_S128_S1x128

theorem bias2_apply (b : FVec Ideal S64 .f32) (z : Fin 1) (q : Fin 128) :
    bias2 b (ix2 z q) = b (ix1 ⟨q.val % 64, Nat.mod_lt _ (by decide)⟩) := by
  unfold bias2
  have e : shapeCast S1x128 (concatenate S128 0 [⟨S64, b⟩, ⟨S64, b⟩] concatenates_S64_S64_S128_d0) shapeCasts_S128_S1x128 (ix2 z q)
      = concatenate S128 0 [⟨S64, b⟩, ⟨S64, b⟩] concatenates_S64_S64_S128_d0 (ix1 q) := by
    refine shapeCast_apply _ shapeCasts_S128_S1x128 (ix2 z q) (ix1 q) ?_
    rw [Shape.rowMajor_val_one, Shape.rowMajor_val_two]
    show q.val = z.val * 128 + q.val
    have := z.isLt; omega
  rw [e]
  by_cases hq : q.val < 64
  · refine concatenate_pair_apply_left (0 : Fin S128.rank) b b concatenates_S64_S64_S128_d0 (ix1 q) rfl
      (ix1 ⟨q.val % 64, Nat.mod_lt _ (by decide)⟩) (fun a => ?_)
    match a with
    | ⟨0, _⟩ => show q.val % 64 = q.val; omega
  · refine concatenate_pair_apply_right (0 : Fin S128.rank) b b concatenates_S64_S64_S128_d0 (ix1 q) rfl rfl
      (ix1 ⟨q.val % 64, Nat.mod_lt _ (by decide)⟩) (fun a ha => ?_) ?_
    · match a with
      | ⟨0, _⟩ => exact absurd rfl ha
    · show q.val % 64 + 64 = q.val
      have := q.isLt; omega

/-! ## A sum of 128 products of which one half vanishes -/

/-- If the right factors vanish outside half `h` of the 128 positions, the sum of the 128 products is the sum over
    that half's 64 positions. No finiteness is needed: a product with 0 is 0 on the extended reals. -/
theorem sum_half (L R : Fin 128 → EReal) (L' R' : Fin 64 → EReal) (h : ℕ) (hh : h < 2)
    (hL : ∀ (k : Fin 128) (k' : Fin 64), k.val = 64 * h + k'.val → L k = L' k')
    (hR : ∀ (k : Fin 128) (k' : Fin 64), k.val = 64 * h + k'.val → R k = R' k')
    (hR0 : ∀ k : Fin 128, k.val / 64 ≠ h → R k = 0) :
    ∑ k, L k * R k = ∑ k', L' k' * R' k' := by
  have split : ∑ k : Fin 128, L k * R k
      = ∑ i : Fin 64, L (Fin.castAdd 64 i) * R (Fin.castAdd 64 i) + ∑ i : Fin 64, L (Fin.natAdd 64 i) * R (Fin.natAdd 64 i) :=
    Fin.sum_univ_add (a := 64) (b := 64) (fun k => L k * R k)
  rw [split]
  interval_cases h
  · have z : ∑ i : Fin 64, L (Fin.natAdd 64 i) * R (Fin.natAdd 64 i) = 0 :=
      Finset.sum_eq_zero fun i _ => by
        rw [hR0 (Fin.natAdd 64 i) (by show (64 + i.val) / 64 ≠ 0; omega), mul_zero]
    rw [z, add_zero]
    exact Finset.sum_congr rfl fun i _ => by
      rw [hL (Fin.castAdd 64 i) i (by show i.val = 64 * 0 + i.val; omega),
        hR (Fin.castAdd 64 i) i (by show i.val = 64 * 0 + i.val; omega)]
  · have z : ∑ i : Fin 64, L (Fin.castAdd 64 i) * R (Fin.castAdd 64 i) = 0 :=
      Finset.sum_eq_zero fun i _ => by
        rw [hR0 (Fin.castAdd 64 i) (by show i.val / 64 ≠ 1; have := i.isLt; omega), mul_zero]
    rw [z, zero_add]
    exact Finset.sum_congr rfl fun i _ => by
      rw [hL (Fin.natAdd 64 i) i (by show 64 + i.val = 64 * 1 + i.val; omega),
        hR (Fin.natAdd 64 i) i (by show 64 + i.val = 64 * 1 + i.val; omega)]

end Cert.KernelIdeal.Pairing

end
-- ==== Proof.Payloads.lean ====
/-
  The three kernel bodies' arithmetic read at one element of a block, on the extended reals.

  A change of float format is the identity there, so the bf16 casts in front of the matrix unit disappear; a matrix
  product into a zero accumulator is the plain sum over the contracted axis. For a block x : [5000, 128], a weight
  w : [128, 128] and a bias row b : [1, 128]:
    linear            (p, q) ↦ Σ_k x (p, k) · w (k, q)
    linear, bias, relu (p, q) ↦ max (Σ_k x (p, k) · w (k, q) + b (0, q)) 0
    residual          (p, q) ↦ out (p, q) + max (agg (p, q) + b (0, q)) 0
-/
import proofs.«136715_j45449343926354_2_alg».proof.Proof.Gen.KernelIdeal.Skeleton
import proofs.«136715_j45449343926354_2_alg».proof.Proof.Pairing

noncomputable section

open scoped BigOperators

namespace Cert.KernelIdeal.Payloads

open Idealize.ShloMosaic Idealize.ShloMosaic.ValueIdx Cert.KernelIdeal Cert.KernelIdeal.Gen

/-! ## The matrix unit's operand indices -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator at (p, q): the sum over the 128 contracted positions. -/
theorem dot128_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The same with the casts the body puts in front of the matrix unit: they are identities. -/
theorem castDot_apply (x0 : Vec Ideal S5000x128 .f32) (w : Vec Ideal S128x128 .f32) (p : Fin 5000) (q : Fin 128) :
    matmul (F := Ideal) dot_S5000x128_S128x128_S5000x128_1_0_0_1_n_n none
        (truncf (F := Ideal) .bf16 (shapeCast S5000x128 x0 shapeCasts_S5000x128_S5000x128) bitsLt_bf16_f32)
        (truncf (F := Ideal) .bf16 (shapeCast S128x128 w shapeCasts_S128x128_S128x128) bitsLt_bf16_f32)
        (constant S5000x128 .f32 0x00000000#32) (ix2 p q)
      = ∑ k : Fin 128, x0 (ix2 p k) * w (ix2 k q) := by
  rw [shapeCast_self, shapeCast_self]
  exact dot128_apply (φ₁ := .bf16) (φ₂ := .bf16) (truncf (F := Ideal) .bf16 x0 bitsLt_bf16_f32) (truncf (F := Ideal) .bf16 w bitsLt_bf16_f32) p q

/-- A bias row broadcast over the block's rows reads the row's entry of the column. -/
theorem biasRow_apply (v : Vec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  refine broadcastTo_apply v broadcasts_S1x128_S5000x128 (ix2 p q) (ix2 (0 : Fin 1) q) (fun a => ?_)
  match a with
  | ⟨0, _⟩ => show (0 : ℕ) = if (1 : ℕ) = 1 then 0 else _; rw [if_pos rfl]
  | ⟨1, _⟩ => show q.val = if (128 : ℕ) = 1 then 0 else q.val; rw [if_neg (by decide)]

/-! ## The three payloads -/

/-- The linear body at (p, q). -/
theorem linear1_apply (x0 : Vec Ideal S5000x128 .f32) (w : Vec Ideal S128x128 .f32) (p : Fin 5000) (q : Fin 128) :
    k1_pay1 (F := Ideal) x0 w (ix2 p q) = ∑ k : Fin 128, x0 (ix2 p k) * w (ix2 k q) :=
  castDot_apply x0 w p q

theorem linear3_apply (x0 : Vec Ideal S5000x128 .f32) (w : Vec Ideal S128x128 .f32) (p : Fin 5000) (q : Fin 128) :
    k3_pay1 (F := Ideal) x0 w (ix2 p q) = ∑ k : Fin 128, x0 (ix2 p k) * w (ix2 k q) :=
  castDot_apply x0 w p q

/-- The linear body with bias and relu at (p, q). -/
theorem linearBiasRelu_apply (x0 : Vec Ideal S5000x128 .f32) (w : Vec Ideal S128x128 .f32) (b : Vec Ideal S1x128 .f32)
    (p : Fin 5000) (q : Fin 128) :
    k0_pay1 (F := Ideal) x0 w b (ix2 p q)
      = max ((∑ k : Fin 128, x0 (ix2 p k) * w (ix2 k q)) + b (ix2 (0 : Fin 1) q)) (Ideal.ofBits .f32 0x00000000#32) :=
  congrArg₂ max (congrArg₂ (· + ·) (castDot_apply x0 w p q) (biasRow_apply b p q)) rfl

/-- The residual body at (p, q): `agg` is the aggregated block, `out` the block carried along. -/
theorem residual2_apply (agg : Vec Ideal S5000x128 .f32) (b : Vec Ideal S1x128 .f32) (out : Vec Ideal S5000x128 .f32)
    (p : Fin 5000) (q : Fin 128) :
    k2_pay1 (F := Ideal) agg b out (ix2 p q)
      = out (ix2 p q) + max (agg (ix2 p q) + b (ix2 (0 : Fin 1) q)) (Ideal.ofBits .f32 0x00000000#32) :=
  congrArg₂ (· + ·) (congrFun (shapeCast_self out shapeCasts_S5000x128_S5000x128) (ix2 p q))
    (congrArg₂ max (congrArg₂ (· + ·) (congrFun (shapeCast_self agg shapeCasts_S5000x128_S5000x128) (ix2 p q)) (biasRow_apply b p q)) rfl)

theorem residual4_apply (agg : Vec Ideal S5000x128 .f32) (b : Vec Ideal S1x128 .f32) (out : Vec Ideal S5000x128 .f32)
    (p : Fin 5000) (q : Fin 128) :
    k4_pay1 (F := Ideal) agg b out (ix2 p q)
      = out (ix2 p q) + max (agg (ix2 p q) + b (ix2 (0 : Fin 1) q)) (Ideal.ofBits .f32 0x00000000#32) :=
  congrArg₂ (· + ·) (congrFun (shapeCast_self out shapeCasts_S5000x128_S5000x128) (ix2 p q))
    (congrArg₂ max (congrArg₂ (· + ·) (congrFun (shapeCast_self agg shapeCasts_S5000x128_S5000x128) (ix2 p q)) (biasRow_apply b p q)) rfl)

end Cert.KernelIdeal.Payloads

end
-- ==== Proof.NodeMajor.lean ====
/-
  The node-major side of each layer, read at an index, and the equation that joins the two layouts.

  On the host, with Y : [50000, 64], W : [64, 64], b : [64]:
    (Y W) (n, j)                = Σ_k Y (n, k) · W (k, j)
    (Y W + b) relu              = max ((Y W) (n, j) + b j) 0
    residual Y A b (n, j)       = Y (n, j) + max (A (n, j) + b j) 0
  The joining equation: if a block x holds rows 5000 r0 .. of the lane-dense view of Y (so x (p, k) is Y at node
  2 (5000 r0 + p) + k / 64, channel k mod 64) and w is diag(W, W), then Σ_k x (p, k) · w (k, q) over the 128 lanes is
  (Y W) at node 2 (5000 r0 + p) + q / 64, channel q mod 64: the lanes of the other half meet zeros.
-/
import proofs.«136715_j45449343926354_2_alg».proof.Proof.Gen.ReferenceIdeal.Read
import proofs.«136715_j45449343926354_2_alg».proof.Proof.Payloads

noncomputable section

open scoped BigOperators

namespace Cert.KernelIdeal.NodeMajor

open Idealize.ShloMosaic Idealize.ShloMosaic.ValueIdx
open Cert.KernelIdeal Cert.KernelIdeal.Gen Cert.KernelIdeal.Pairing Cert.KernelIdeal.Payloads

theorem hz : (![0, 0] : Fin 2 → Nat) = fun _ => 0 := funext fun a => by fin_cases a <;> rfl

/-- The product Y W on the host. -/
abbrev nodeDot (Y : FVec Ideal S50000x64 .f32) (W : FVec Ideal S64x64 .f32) : FVec Ideal S50000x64 .f32 :=
  Cert.ReferenceIdeal.Read.val_main_v30 (F := Ideal) Y W

/-- The product Y W read at a node-major index: row against column. -/
theorem nodeDot_apply (Y : FVec Ideal S50000x64 .f32) (W : FVec Ideal S64x64 .f32) (n0 : Fin 50000) (n1 : Fin 64) :
    nodeDot Y W (ix2 n0 n1) = ∑ k' : Fin 64, Y (ix2 n0 k') * W (ix2 k' n1) := by
  refine (Cert.ReferenceIdeal.Read.val_main_v30_apply Y W (ix2 n0 n1)).trans ?_
  refine Finset.sum_congr rfl fun k' _ => ?_
  have el : Cert.ReferenceIdeal.Read.lidx_main_v30 (ix2 n0 n1) k' = ix2 n0 k' :=
    funext fun a => by match a with | ⟨0, _⟩ => rfl | ⟨1, _⟩ => rfl
  have er : Cert.ReferenceIdeal.Read.ridx_main_v30 (ix2 n0 n1) k' = ix2 k' n1 :=
    funext fun a => by match a with | ⟨0, _⟩ => rfl | ⟨1, _⟩ => rfl
  rw [el, er]

/-- THE JOINING EQUATION. -/
theorem rowSum_eq (Y : FVec Ideal S50000x64 .f32) (W : FVec Ideal S64x64 .f32)
    (x0 : Vec Ideal S5000x128 .f32) (w : Vec Ideal S128x128 .f32) (r0 : ℕ)
    (hx : ∀ (p : Fin 5000) (k : Fin 128) (n : S50000x64.Idx), (n 0).val = 2 * (r0 * 5000 + p.val) + k.val / 64 →
      (n 1).val = k.val % 64 → x0 (ix2 p k) = Y n)
    (hw : ∀ k q : Fin 128, w (ix2 k q) = blockDiag W (ix2 k q))
    (p : Fin 5000) (q : Fin 128) (n0 : Fin 50000) (n1 : Fin 64)
    (hn0 : n0.val = 2 * (r0 * 5000 + p.val) + q.val / 64) (hn1 : n1.val = q.val % 64) :
    ∑ k : Fin 128, x0 (ix2 p k) * w (ix2 k q) = nodeDot Y W (ix2 n0 n1) := by
  rw [nodeDot_apply]
  have hq := q.isLt
  refine sum_half (fun k => x0 (ix2 p k)) (fun k => w (ix2 k q)) (fun k' => Y (ix2 n0 k')) (fun k' => W (ix2 k' n1))
    (q.val / 64) (by omega) (fun k k' hk => ?_) (fun k k' hk => ?_) (fun k hk => ?_)
  · have hk' := k'.isLt
    exact hx p k (ix2 n0 k') (by show n0.val = _; omega) (by show k'.val = _; omega)
  · have hk' := k'.isLt
    show w (ix2 k q) = W (ix2 k' n1)
    rw [hw, blockDiag_apply, if_pos (by omega)]
    exact congrArg W (funext fun a => Fin.ext (by
      match a with
      | ⟨0, _⟩ => show k.val % 64 = k'.val; omega
      | ⟨1, _⟩ => show q.val % 64 = n1.val; omega))
  · show w (ix2 k q) = 0
    rw [hw, blockDiag_apply, if_neg hk]

/-- A bias broadcast over the nodes reads the channel's entry. -/
theorem nodeBias_apply (b : FVec Ideal S64 .f32) (n0 : Fin 50000) (n1 : Fin 64) :
    Cert.ReferenceIdeal.Read.val_main_v32 (F := Ideal) b (ix2 n0 n1) = b (ix1 n1) := by
  rw [Cert.ReferenceIdeal.Read.val_main_v32_apply, Cert.ReferenceIdeal.Read.val_main_v31_apply]
  exact congrArg b (funext fun a => by match a with | ⟨0, _⟩ => rfl)

/-- The zero array the host takes the maximum with reads the zero word. -/
theorem nodeZero_apply (n : S50000x64.Idx) :
    Cert.ReferenceIdeal.Read.val_main_call2_v0 (F := Ideal) n = Ideal.ofBits .f32 0x00000000#32 := by
  rw [Cert.ReferenceIdeal.Read.val_main_call2_v0_apply]; rfl

/-- relu (Y W + b) on the host. -/
abbrev nodeLinRelu (Y : FVec Ideal S50000x64 .f32) (W : FVec Ideal S64x64 .f32) (b : FVec Ideal S64 .f32) :
    FVec Ideal S50000x64 .f32 :=
  Cert.ReferenceIdeal.Read.val_main_v34 (F := Ideal) Y W b

theorem nodeLinRelu_apply (Y : FVec Ideal S50000x64 .f32) (W : FVec Ideal S64x64 .f32) (b : FVec Ideal S64 .f32)
    (n0 : Fin 50000) (n1 : Fin 64) :
    nodeLinRelu Y W b (ix2 n0 n1) = max (nodeDot Y W (ix2 n0 n1) + b (ix1 n1)) (Ideal.ofBits .f32 0x00000000#32) := by
  show max (Cert.ReferenceIdeal.Read.val_main_v30 (F := Ideal) Y W (ix2 n0 n1) + Cert.ReferenceIdeal.Read.val_main_v32 (F := Ideal) b (ix2 n0 n1))
    (Cert.ReferenceIdeal.Read.val_main_call2_v0 (F := Ideal) (ix2 n0 n1)) = _
  rw [nodeBias_apply, nodeZero_apply]

/-- Y + relu (A + b) on the host. -/
def nodeResidual (Y A : FVec Ideal S50000x64 .f32) (b : FVec Ideal S64 .f32) : FVec Ideal S50000x64 .f32 :=
  addf Y (maximumf (addf A (Cert.ReferenceIdeal.Read.val_main_v32 (F := Ideal) b)) (Cert.ReferenceIdeal.Read.val_main_call2_v0 (F := Ideal)))

theorem nodeResidual_apply (Y A : FVec Ideal S50000x64 .f32) (b : FVec Ideal S64 .f32) (n0 : Fin 50000) (n1 : Fin 64) :
    nodeResidual Y A b (ix2 n0 n1)
      = Y (ix2 n0 n1) + max (A (ix2 n0 n1) + b (ix1 n1)) (Ideal.ofBits .f32 0x00000000#32) := by
  show Y (ix2 n0 n1) + max (A (ix2 n0 n1) + Cert.ReferenceIdeal.Read.val_main_v32 (F := Ideal) b (ix2 n0 n1))
    (Cert.ReferenceIdeal.Read.val_main_call2_v0 (F := Ideal) (ix2 n0 n1)) = _
  rw [nodeBias_apply, nodeZero_apply]

end Cert.KernelIdeal.NodeMajor

end
-- ==== Proof.LinRelu0.lean ====
/-
  Region 0 (linear layer, bias, relu over the lane-dense layout), from blocks to the whole array.

  relu (X2 · w + bias row) on [25000, 128], five blocks of 5000 rows. When X2 is the lane-dense view of a node-major
  Y, the weight is diag(W, W) and the bias row is (b, b), the array the region leaves is the lane-dense view of
  relu (Y W + b).
-/
import proofs.«136715_j45449343926354_2_alg».proof.Proof.Gen.KernelIdeal.Frame
import proofs.«136715_j45449343926354_2_alg».proof.Proof.NodeMajor

set_option maxRecDepth 16384

noncomputable section

open scoped BigOperators

namespace Cert.KernelIdeal.LinRelu0

open Idealize.ShloMosaic Idealize.ShloMosaic.TcCoe Idealize.ShloMosaic.ValueIdx Idealize.SL.Sem
open Cert.KernelIdeal Cert.KernelIdeal.Gen Cert.KernelIdeal.Pairing Cert.KernelIdeal.Payloads Cert.KernelIdeal.NodeMajor
open Idealize.ShloMosaic.Pipeline (Dat)

/-- One element of one block. -/
theorem point_eq (Y : FVec Ideal S50000x64 .f32) (W : FVec Ideal S64x64 .f32) (b : FVec Ideal S64 .f32)
    (x0 : Vec Ideal S5000x128 .f32) (w : Vec Ideal S128x128 .f32) (xb : Vec Ideal S1x128 .f32) (r0 : ℕ)
    (hx : ∀ (p : Fin 5000) (k : Fin 128) (n : S50000x64.Idx), (n 0).val = 2 * (r0 * 5000 + p.val) + k.val / 64 →
      (n 1).val = k.val % 64 → x0 (ix2 p k) = Y n)
    (hw : ∀ k q : Fin 128, w (ix2 k q) = blockDiag W (ix2 k q))
    (hb : ∀ q : Fin 128, xb (ix2 (0 : Fin 1) q) = bias2 b (ix2 (0 : Fin 1) q))
    (p : Fin 5000) (q : Fin 128) (n0 : Fin 50000) (n1 : Fin 64)
    (hn0 : n0.val = 2 * (r0 * 5000 + p.val) + q.val / 64) (hn1 : n1.val = q.val % 64) :
    k0_pay1 (F := Ideal) x0 w xb (ix2 p q) = nodeLinRelu Y W b (ix2 n0 n1) := by
  rw [linearBiasRelu_apply, nodeLinRelu_apply, rowSum_eq Y W x0 w r0 hx hw p q n0 n1 hn0 hn1, hb, bias2_apply]
  have e : (⟨q.val % 64, Nat.mod_lt _ (by decide)⟩ : Fin 64) = n1 := Fin.ext hn1.symm
  rw [e]

variable (V : (c : Dev nD) → (b : Ref sig .tc) → Buf (Elt Ideal) ((c : Thread nD τ).loc b))

/-- The printed index maps, decided once over the grid: the data block moves with the output block along the rows,
    the weight and the bias row never move. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

set_option maxHeartbeats 1600000 in
/-- What a grid point writes back is its block of the lane-dense view of relu (Y W + b). -/
theorem flushed_eq (c : Dev nD) (t : Fin cfg0.N) (Y : FVec Ideal S50000x64 .f32) (W : FVec Ideal S64x64 .f32) (b : FVec Ideal S64 .f32)
    (hY : V c (Pipeline.arrRef spec0 0) = shapeCast S25000x128 Y shapeCasts_S50000x64_S25000x128)
    (hW : V c (Pipeline.arrRef spec0 1) = blockDiag W)
    (hB : V c (Pipeline.arrRef spec0 2) = bias2 b) :
    (dat0 V c).flushed 3 t = ((cfg0.win 3).blk t).view.read (Elt Ideal)
      (shapeCast S25000x128 (nodeLinRelu Y W b) shapeCasts_S50000x64_S25000x128) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  have hj0 : (j 0).val < 5000 := (j 0).isLt
  have hj1 : (j 1).val < 128 := (j 1).isLt
  have hc0 : ((((cfg0.win 3).blk t).view.emb j) 0).val = win0_3.index t (0 : Fin 2) * 5000 + 1 * (j 0).val := rfl
  have hc1 : ((((cfg0.win 3).blk t).view.emb j) 1).val = win0_3.index t (1 : Fin 2) * 128 + 1 * (j 1).val := rfl
  have hn : pairIdx (((cfg0.win 3).blk t).view.emb j)
      = ix2 ⟨2 * (win0_3.index t (0 : Fin 2) * 5000 + (j 0).val) + (j 1).val / 64, by omega⟩ ⟨(j 1).val % 64, Nat.mod_lt _ (by decide)⟩ :=
    funext fun a => Fin.ext (by
      match a with
      | ⟨0, _⟩ => show 2 * ((((cfg0.win 3).blk t).view.emb j) 0).val + ((((cfg0.win 3).blk t).view.emb j) 1).val / 64 = _; rw [hc0, hc1]; show _ = 2 * (win0_3.index t (0 : Fin 2) * 5000 + (j 0).val) + (j 1).val / 64; omega
      | ⟨1, _⟩ => show ((((cfg0.win 3).blk t).view.emb j) 1).val % 64 = _; rw [hc1]; show _ = (j 1).val % 64; omega)
  show k0_pay1 (F := Ideal) (iblk0 V c 0 t) (iblk0 V c 1 t) (iblk0 V c 2 t) (ix2 ⟨(j 0).val, hj0⟩ ⟨(j 1).val, hj1⟩)
    = shapeCast S25000x128 (nodeLinRelu Y W b) shapeCasts_S50000x64_S25000x128 (((cfg0.win 3).blk t).view.emb j)
  rw [shapeCast_pair, hn]
  refine point_eq Y W b (iblk0 V c 0 t) (iblk0 V c 1 t) (iblk0 V c 2 t) (win0_3.index t (0 : Fin 2))
    (fun p k n h0 h1 => ?_) (fun k q => ?_) (fun q => ?_)
    ⟨(j 0).val, hj0⟩ ⟨(j 1).val, hj1⟩ _ _ rfl rfl
  · show V c (Pipeline.arrRef spec0 0) (((cfg0.win 0).blk t).view.emb (ix2 p k)) = Y n
    rw [hY, shapeCast_pair]
    refine congrArg Y (funext fun a => Fin.ext ?_)
    match a with
    | ⟨0, _⟩ =>
      show 2 * (win0_0.index t (0 : Fin 2) * 5000 + 1 * p.val) + (win0_0.index t (1 : Fin 2) * 128 + 1 * k.val) / 64 = (n 0).val
      rw [h0]; omega
    | ⟨1, _⟩ =>
      show (win0_0.index t (1 : Fin 2) * 128 + 1 * k.val) % 64 = (n 1).val
      rw [h1]; omega
  · show V c (Pipeline.arrRef spec0 1) (((cfg0.win 1).blk t).view.emb (ix2 k q)) = blockDiag W (ix2 k q)
    rw [hW]
    refine congrArg (blockDiag W) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c (Pipeline.arrRef spec0 2) (((cfg0.win 2).blk t).view.emb (ix2 (0 : Fin 1) q)) = bias2 b (ix2 (0 : Fin 1) q)
    rw [hB]
    refine congrArg (bias2 b) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the array is in a point's block iff each coordinate is in the block's range. -/
theorem mem_blk (t : Fin cfg0.N) (i : S25000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Every one of the five row blocks is some grid point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- The five blocks cover the array. -/
theorem cover (i : S25000x128.Idx) : ∃ t : Fin cfg0.N, (cfg0.win 3).flush t = true ∧ i ∈ ((cfg0.win 3).blk t).view.set := by
  have hi0 : (i 0).val < 25000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the region leaves: the lane-dense view of relu (Y W + b). -/
theorem final (c : Dev nD) (Y : FVec Ideal S50000x64 .f32) (W : FVec Ideal S64x64 .f32) (b : FVec Ideal S64 .f32)
    (hY : V c (Pipeline.arrRef spec0 0) = shapeCast S25000x128 Y shapeCasts_S50000x64_S25000x128)
    (hW : V c (Pipeline.arrRef spec0 1) = blockDiag W)
    (hB : V c (Pipeline.arrRef spec0 2) = bias2 b) :
    (dat0 V c).arrAt 3 cfg0.N = shapeCast S25000x128 (nodeLinRelu Y W b) shapeCasts_S50000x64_S25000x128 :=
  (dat0 V c).arrAt_eq_of_cover 3 _ (fun t _ => flushed_eq V c t Y W b hY hW hB) cover

end Cert.KernelIdeal.LinRelu0

end
-- ==== Proof.Linear1.lean ====
/-
  Region 1 (a linear layer over the lane-dense layout), from blocks to the whole array.

  The region multiplies X2 : [25000, 128] by a 128 x 128 weight, five blocks of 5000 rows, one per grid point. When X2
  is the lane-dense view of a node-major Y : [50000, 64] and the weight is diag(W, W), the array it leaves is the
  lane-dense view of the product Y W.
-/
import proofs.«136715_j45449343926354_2_alg».proof.Proof.Gen.KernelIdeal.Frame
import proofs.«136715_j45449343926354_2_alg».proof.Proof.NodeMajor

set_option maxRecDepth 16384

noncomputable section

open scoped BigOperators

namespace Cert.KernelIdeal.Linear1

open Idealize.ShloMosaic Idealize.ShloMosaic.TcCoe Idealize.ShloMosaic.ValueIdx Idealize.SL.Sem
open Cert.KernelIdeal Cert.KernelIdeal.Gen Cert.KernelIdeal.Pairing Cert.KernelIdeal.Payloads Cert.KernelIdeal.NodeMajor
open Idealize.ShloMosaic.Pipeline (Dat)

/-- One element of one block. -/
theorem point_eq (Y : FVec Ideal S50000x64 .f32) (W : FVec Ideal S64x64 .f32)
    (x0 : Vec Ideal S5000x128 .f32) (w : Vec Ideal S128x128 .f32) (r0 : ℕ)
    (hx : ∀ (p : Fin 5000) (k : Fin 128) (n : S50000x64.Idx), (n 0).val = 2 * (r0 * 5000 + p.val) + k.val / 64 →
      (n 1).val = k.val % 64 → x0 (ix2 p k) = Y n)
    (hw : ∀ k q : Fin 128, w (ix2 k q) = blockDiag W (ix2 k q))
    (p : Fin 5000) (q : Fin 128) (n0 : Fin 50000) (n1 : Fin 64)
    (hn0 : n0.val = 2 * (r0 * 5000 + p.val) + q.val / 64) (hn1 : n1.val = q.val % 64) :
    k1_pay1 (F := Ideal) x0 w (ix2 p q) = nodeDot Y W (ix2 n0 n1) := by
  rw [linear1_apply]
  exact rowSum_eq Y W x0 w r0 hx hw p q n0 n1 hn0 hn1

variable (V : (c : Dev nD) → (b : Ref sig .tc) → Buf (Elt Ideal) ((c : Thread nD τ).loc b))

/-- The printed index maps, decided once over the grid: the input block moves with the output block along the rows,
    the weight's block never moves. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

set_option maxHeartbeats 1600000 in
/-- What a grid point writes back is its block of the lane-dense view of Y W. -/
theorem flushed_eq (c : Dev nD) (t : Fin cfg1.N) (Y : FVec Ideal S50000x64 .f32) (W : FVec Ideal S64x64 .f32)
    (hY : V c (Pipeline.arrRef spec1 0) = shapeCast S25000x128 Y shapeCasts_S50000x64_S25000x128)
    (hW : V c (Pipeline.arrRef spec1 1) = blockDiag W) :
    (dat1 V c).flushed 2 t = ((cfg1.win 2).blk t).view.read (Elt Ideal)
      (shapeCast S25000x128 (nodeDot Y W) shapeCasts_S50000x64_S25000x128) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  have hj0 : (j 0).val < 5000 := (j 0).isLt
  have hj1 : (j 1).val < 128 := (j 1).isLt
  have hc0 : ((((cfg1.win 2).blk t).view.emb j) 0).val = win1_2.index t (0 : Fin 2) * 5000 + 1 * (j 0).val := rfl
  have hc1 : ((((cfg1.win 2).blk t).view.emb j) 1).val = win1_2.index t (1 : Fin 2) * 128 + 1 * (j 1).val := rfl
  have hn : pairIdx (((cfg1.win 2).blk t).view.emb j)
      = ix2 ⟨2 * (win1_2.index t (0 : Fin 2) * 5000 + (j 0).val) + (j 1).val / 64, by omega⟩ ⟨(j 1).val % 64, Nat.mod_lt _ (by decide)⟩ :=
    funext fun a => Fin.ext (by
      match a with
      | ⟨0, _⟩ => show 2 * ((((cfg1.win 2).blk t).view.emb j) 0).val + ((((cfg1.win 2).blk t).view.emb j) 1).val / 64 = _; rw [hc0, hc1]; show _ = 2 * (win1_2.index t (0 : Fin 2) * 5000 + (j 0).val) + (j 1).val / 64; omega
      | ⟨1, _⟩ => show ((((cfg1.win 2).blk t).view.emb j) 1).val % 64 = _; rw [hc1]; show _ = (j 1).val % 64; omega)
  show k1_pay1 (F := Ideal) (iblk1 V c 0 t) (iblk1 V c 1 t) (ix2 ⟨(j 0).val, hj0⟩ ⟨(j 1).val, hj1⟩)
    = shapeCast S25000x128 (nodeDot Y W) shapeCasts_S50000x64_S25000x128 (((cfg1.win 2).blk t).view.emb j)
  rw [shapeCast_pair, hn]
  refine point_eq Y W (iblk1 V c 0 t) (iblk1 V c 1 t) (win1_2.index t (0 : Fin 2)) (fun p k n h0 h1 => ?_) (fun k q => ?_)
    ⟨(j 0).val, hj0⟩ ⟨(j 1).val, hj1⟩ _ _ rfl rfl
  · show V c (Pipeline.arrRef spec1 0) (((cfg1.win 0).blk t).view.emb (ix2 p k)) = Y n
    rw [hY, shapeCast_pair]
    refine congrArg Y (funext fun a => Fin.ext ?_)
    match a with
    | ⟨0, _⟩ =>
      show 2 * (win1_0.index t (0 : Fin 2) * 5000 + 1 * p.val) + (win1_0.index t (1 : Fin 2) * 128 + 1 * k.val) / 64 = (n 0).val
      rw [h0]; omega
    | ⟨1, _⟩ =>
      show (win1_0.index t (1 : Fin 2) * 128 + 1 * k.val) % 64 = (n 1).val
      rw [h1]; omega
  · show V c (Pipeline.arrRef spec1 1) (((cfg1.win 1).blk t).view.emb (ix2 k q)) = blockDiag W (ix2 k q)
    rw [hW]
    refine congrArg (blockDiag W) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega

/-- An index of the array is in a point's block iff each coordinate is in the block's range. -/
theorem mem_blk (t : Fin cfg1.N) (i : S25000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Every one of the five row blocks is some grid point's. -/
theorem idx_onto : ∀ q0 : Fin 5, ∃ t : Fin cfg1.N, win1_2.index t = ![q0.val, 0] :=
  (by decide +kernel : ∀ q0 : Fin 5, ∃ t : Fin grid1.N, win1_2.index t = ![q0.val, 0])

/-- The five blocks cover the array. -/
theorem cover (i : S25000x128.Idx) : ∃ t : Fin cfg1.N, (cfg1.win 2).flush t = true ∧ i ∈ ((cfg1.win 2).blk t).view.set := by
  have hi0 : (i 0).val < 25000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the region leaves: the lane-dense view of Y W. -/
theorem final (c : Dev nD) (Y : FVec Ideal S50000x64 .f32) (W : FVec Ideal S64x64 .f32)
    (hY : V c (Pipeline.arrRef spec1 0) = shapeCast S25000x128 Y shapeCasts_S50000x64_S25000x128)
    (hW : V c (Pipeline.arrRef spec1 1) = blockDiag W) :
    (dat1 V c).arrAt 2 cfg1.N = shapeCast S25000x128 (nodeDot Y W) shapeCasts_S50000x64_S25000x128 :=
  (dat1 V c).arrAt_eq_of_cover 2 _ (fun t _ => flushed_eq V c t Y W hY hW) cover

end Cert.KernelIdeal.Linear1

end
-- ==== Proof.Residual2.lean ====
/-
  Region 2 (residual, bias, relu over the lane-dense layout), from blocks to the whole array.

  Pointwise on [25000, 128]: out + max (agg + bias row) 0, five blocks of 5000 rows. When `out` and `agg` are the
  lane-dense views of node-major arrays Y and A, and the bias row is (b, b), the array the region leaves is the
  lane-dense view of Y + relu (A + b): entry (r, q) pairs with node 2 r + q / 64, channel q mod 64, on every operand.
-/
import proofs.«136715_j45449343926354_2_alg».proof.Proof.Gen.KernelIdeal.Frame
import proofs.«136715_j45449343926354_2_alg».proof.Proof.NodeMajor

set_option maxRecDepth 16384

noncomputable section

open scoped BigOperators

namespace Cert.KernelIdeal.Residual2

open Idealize.ShloMosaic Idealize.ShloMosaic.TcCoe Idealize.ShloMosaic.ValueIdx Idealize.SL.Sem
open Cert.KernelIdeal Cert.KernelIdeal.Gen Cert.KernelIdeal.Pairing Cert.KernelIdeal.Payloads Cert.KernelIdeal.NodeMajor
open Idealize.ShloMosaic.Pipeline (Dat)

/-- One element of one block. -/
theorem point_eq (Y A : FVec Ideal S50000x64 .f32) (b : FVec Ideal S64 .f32)
    (xo xa : Vec Ideal S5000x128 .f32) (xb : Vec Ideal S1x128 .f32) (r0 : ℕ)
    (ho : ∀ (p : Fin 5000) (k : Fin 128) (n : S50000x64.Idx), (n 0).val = 2 * (r0 * 5000 + p.val) + k.val / 64 →
      (n 1).val = k.val % 64 → xo (ix2 p k) = Y n)
    (ha : ∀ (p : Fin 5000) (k : Fin 128) (n : S50000x64.Idx), (n 0).val = 2 * (r0 * 5000 + p.val) + k.val / 64 →
      (n 1).val = k.val % 64 → xa (ix2 p k) = A n)
    (hb : ∀ q : Fin 128, xb (ix2 (0 : Fin 1) q) = bias2 b (ix2 (0 : Fin 1) q))
    (p : Fin 5000) (q : Fin 128) (n0 : Fin 50000) (n1 : Fin 64)
    (hn0 : n0.val = 2 * (r0 * 5000 + p.val) + q.val / 64) (hn1 : n1.val = q.val % 64) :
    k2_pay1 (F := Ideal) xa xb xo (ix2 p q) = nodeResidual Y A b (ix2 n0 n1) := by
  rw [residual2_apply, nodeResidual_apply, ho p q (ix2 n0 n1) hn0 hn1, ha p q (ix2 n0 n1) hn0 hn1, hb, bias2_apply]
  have e : (⟨q.val % 64, Nat.mod_lt _ (by decide)⟩ : Fin 64) = n1 := Fin.ext hn1.symm
  rw [e]

variable (V : (c : Dev nD) → (b : Ref sig .tc) → Buf (Elt Ideal) ((c : Thread nD τ).loc b))

/-- The printed index maps, decided once over the grid: both data blocks move with the output block along the rows,
    the bias row never moves. -/
theorem idx_facts : ∀ t : Fin cfg2.N, win2_0.index t (0 : Fin 2) = win2_3.index t (0 : Fin 2)
    ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 4 :=
  (by decide +kernel : ∀ t : Fin grid2.N, _)

set_option maxHeartbeats 1600000 in
/-- What a grid point writes back is its block of the lane-dense view of Y + relu (A + b). -/
theorem flushed_eq (c : Dev nD) (t : Fin cfg2.N) (Y A : FVec Ideal S50000x64 .f32) (b : FVec Ideal S64 .f32)
    (hY : V c (Pipeline.arrRef spec2 0) = shapeCast S25000x128 Y shapeCasts_S50000x64_S25000x128)
    (hA : V c (Pipeline.arrRef spec2 1) = shapeCast S25000x128 A shapeCasts_S50000x64_S25000x128)
    (hB : V c (Pipeline.arrRef spec2 2) = bias2 b) :
    (dat2 V c).flushed 3 t = ((cfg2.win 3).blk t).view.read (Elt Ideal)
      (shapeCast S25000x128 (nodeResidual Y A b) shapeCasts_S50000x64_S25000x128) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  obtain ⟨e0, e1, e2, e3, e4, e5, e6, e7⟩ := idx_facts t
  funext j
  have hj0 : (j 0).val < 5000 := (j 0).isLt
  have hj1 : (j 1).val < 128 := (j 1).isLt
  have hc0 : ((((cfg2.win 3).blk t).view.emb j) 0).val = win2_3.index t (0 : Fin 2) * 5000 + 1 * (j 0).val := rfl
  have hc1 : ((((cfg2.win 3).blk t).view.emb j) 1).val = win2_3.index t (1 : Fin 2) * 128 + 1 * (j 1).val := rfl
  have hn : pairIdx (((cfg2.win 3).blk t).view.emb j)
      = ix2 ⟨2 * (win2_3.index t (0 : Fin 2) * 5000 + (j 0).val) + (j 1).val / 64, by omega⟩ ⟨(j 1).val % 64, Nat.mod_lt _ (by decide)⟩ :=
    funext fun a => Fin.ext (by
      match a with
      | ⟨0, _⟩ => show 2 * ((((cfg2.win 3).blk t).view.emb j) 0).val + ((((cfg2.win 3).blk t).view.emb j) 1).val / 64 = _; rw [hc0, hc1]; show _ = 2 * (win2_3.index t (0 : Fin 2) * 5000 + (j 0).val) + (j 1).val / 64; omega
      | ⟨1, _⟩ => show ((((cfg2.win 3).blk t).view.emb j) 1).val % 64 = _; rw [hc1]; show _ = (j 1).val % 64; omega)
  show k2_pay1 (F := Ideal) (iblk2 V c 1 t) (iblk2 V c 2 t) (iblk2 V c 0 t) (ix2 ⟨(j 0).val, hj0⟩ ⟨(j 1).val, hj1⟩)
    = shapeCast S25000x128 (nodeResidual Y A b) shapeCasts_S50000x64_S25000x128 (((cfg2.win 3).blk t).view.emb j)
  rw [shapeCast_pair, hn]
  refine point_eq Y A b (iblk2 V c 0 t) (iblk2 V c 1 t) (iblk2 V c 2 t) (win2_3.index t (0 : Fin 2))
    (fun p k n h0 h1 => ?_) (fun p k n h0 h1 => ?_) (fun q => ?_)
    ⟨(j 0).val, hj0⟩ ⟨(j 1).val, hj1⟩ _ _ rfl rfl
  · show V c (Pipeline.arrRef spec2 0) (((cfg2.win 0).blk t).view.emb (ix2 p k)) = Y n
    rw [hY, shapeCast_pair]
    refine congrArg Y (funext fun a => Fin.ext ?_)
    match a with
    | ⟨0, _⟩ =>
      show 2 * (win2_0.index t (0 : Fin 2) * 5000 + 1 * p.val) + (win2_0.index t (1 : Fin 2) * 128 + 1 * k.val) / 64 = (n 0).val
      rw [h0]; omega
    | ⟨1, _⟩ =>
      show (win2_0.index t (1 : Fin 2) * 128 + 1 * k.val) % 64 = (n 1).val
      rw [h1]; omega
  · show V c (Pipeline.arrRef spec2 1) (((cfg2.win 1).blk t).view.emb (ix2 p k)) = A n
    rw [hA, shapeCast_pair]
    refine congrArg A (funext fun a => Fin.ext ?_)
    match a with
    | ⟨0, _⟩ =>
      show 2 * (win2_1.index t (0 : Fin 2) * 5000 + 1 * p.val) + (win2_1.index t (1 : Fin 2) * 128 + 1 * k.val) / 64 = (n 0).val
      rw [h0]; omega
    | ⟨1, _⟩ =>
      show (win2_1.index t (1 : Fin 2) * 128 + 1 * k.val) % 64 = (n 1).val
      rw [h1]; omega
  · show V c (Pipeline.arrRef spec2 2) (((cfg2.win 2).blk t).view.emb (ix2 (0 : Fin 1) q)) = bias2 b (ix2 (0 : Fin 1) q)
    rw [hB]
    refine congrArg (bias2 b) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega

/-- An index of the array is in a point's block iff each coordinate is in the block's range. -/
theorem mem_blk (t : Fin cfg2.N) (i : S25000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Every one of the five row blocks is some grid point's. -/
theorem idx_onto : ∀ q0 : Fin 5, ∃ t : Fin cfg2.N, win2_3.index t = ![q0.val, 0] :=
  (by decide +kernel : ∀ q0 : Fin 5, ∃ t : Fin grid2.N, win2_3.index t = ![q0.val, 0])

/-- The five blocks cover the array. -/
theorem cover (i : S25000x128.Idx) : ∃ t : Fin cfg2.N, (cfg2.win 3).flush t = true ∧ i ∈ ((cfg2.win 3).blk t).view.set := by
  have hi0 : (i 0).val < 25000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The array the region leaves: the lane-dense view of Y + relu (A + b). -/
theorem final (c : Dev nD) (Y A : FVec Ideal S50000x64 .f32) (b : FVec Ideal S64 .f32)
    (hY : V c (Pipeline.arrRef spec2 0) = shapeCast S25000x128 Y shapeCasts_S50000x64_S25000x128)
    (hA : V c (Pipeline.arrRef spec2 1) = shapeCast S25000x128 A shapeCasts_S50000x64_S25000x128)
    (hB : V c (Pipeline.arrRef spec2 2) = bias2 b) :
    (dat2 V c).arrAt 3 cfg2.N = shapeCast S25000x128 (nodeResidual Y A b) shapeCasts_S50000x64_S25000x128 :=
  (dat2 V c).arrAt_eq_of_cover 3 _ (fun t _ => flushed_eq V c t Y A b hY hA hB) cover

end Cert.KernelIdeal.Residual2

end
-- ==== Proof.Linear3.lean ====
/-
  Region 3 (a linear layer over the lane-dense layout), from blocks to the whole array.

  The region multiplies X2 : [25000, 128] by a 128 x 128 weight, five blocks of 5000 rows, one per grid point. When X2
  is the lane-dense view of a node-major Y : [50000, 64] and the weight is diag(W, W), the array it leaves is the
  lane-dense view of the product Y W.
-/
import proofs.«136715_j45449343926354_2_alg».proof.Proof.Gen.KernelIdeal.Frame
import proofs.«136715_j45449343926354_2_alg».proof.Proof.NodeMajor

set_option maxRecDepth 16384

noncomputable section

open scoped BigOperators

namespace Cert.KernelIdeal.Linear3

open Idealize.ShloMosaic Idealize.ShloMosaic.TcCoe Idealize.ShloMosaic.ValueIdx Idealize.SL.Sem
open Cert.KernelIdeal Cert.KernelIdeal.Gen Cert.KernelIdeal.Pairing Cert.KernelIdeal.Payloads Cert.KernelIdeal.NodeMajor
open Idealize.ShloMosaic.Pipeline (Dat)

/-- One element of one block. -/
theorem point_eq (Y : FVec Ideal S50000x64 .f32) (W : FVec Ideal S64x64 .f32)
    (x0 : Vec Ideal S5000x128 .f32) (w : Vec Ideal S128x128 .f32) (r0 : ℕ)
    (hx : ∀ (p : Fin 5000) (k : Fin 128) (n : S50000x64.Idx), (n 0).val = 2 * (r0 * 5000 + p.val) + k.val / 64 →
      (n 1).val = k.val % 64 → x0 (ix2 p k) = Y n)
    (hw : ∀ k q : Fin 128, w (ix2 k q) = blockDiag W (ix2 k q))
    (p : Fin 5000) (q : Fin 128) (n0 : Fin 50000) (n1 : Fin 64)
    (hn0 : n0.val = 2 * (r0 * 5000 + p.val) + q.val / 64) (hn1 : n1.val = q.val % 64) :
    k3_pay1 (F := Ideal) x0 w (ix2 p q) = nodeDot Y W (ix2 n0 n1) := by
  rw [linear3_apply]
  exact rowSum_eq Y W x0 w r0 hx hw p q n0 n1 hn0 hn1

variable (V : (c : Dev nD) → (b : Ref sig .tc) → Buf (Elt Ideal) ((c : Thread nD τ).loc b))

/-- The printed index maps, decided once over the grid: the input block moves with the output block along the rows,
    the weight's block never moves. -/
theorem idx_facts : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 4 :=
  (by decide +kernel : ∀ t : Fin grid3.N, _)

set_option maxHeartbeats 1600000 in
/-- What a grid point writes back is its block of the lane-dense view of Y W. -/
theorem flushed_eq (c : Dev nD) (t : Fin cfg3.N) (Y : FVec Ideal S50000x64 .f32) (W : FVec Ideal S64x64 .f32)
    (hY : V c (Pipeline.arrRef spec3 0) = shapeCast S25000x128 Y shapeCasts_S50000x64_S25000x128)
    (hW : V c (Pipeline.arrRef spec3 1) = blockDiag W) :
    (dat3 V c).flushed 2 t = ((cfg3.win 2).blk t).view.read (Elt Ideal)
      (shapeCast S25000x128 (nodeDot Y W) shapeCasts_S50000x64_S25000x128) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  have hj0 : (j 0).val < 5000 := (j 0).isLt
  have hj1 : (j 1).val < 128 := (j 1).isLt
  have hc0 : ((((cfg3.win 2).blk t).view.emb j) 0).val = win3_2.index t (0 : Fin 2) * 5000 + 1 * (j 0).val := rfl
  have hc1 : ((((cfg3.win 2).blk t).view.emb j) 1).val = win3_2.index t (1 : Fin 2) * 128 + 1 * (j 1).val := rfl
  have hn : pairIdx (((cfg3.win 2).blk t).view.emb j)
      = ix2 ⟨2 * (win3_2.index t (0 : Fin 2) * 5000 + (j 0).val) + (j 1).val / 64, by omega⟩ ⟨(j 1).val % 64, Nat.mod_lt _ (by decide)⟩ :=
    funext fun a => Fin.ext (by
      match a with
      | ⟨0, _⟩ => show 2 * ((((cfg3.win 2).blk t).view.emb j) 0).val + ((((cfg3.win 2).blk t).view.emb j) 1).val / 64 = _; rw [hc0, hc1]; show _ = 2 * (win3_2.index t (0 : Fin 2) * 5000 + (j 0).val) + (j 1).val / 64; omega
      | ⟨1, _⟩ => show ((((cfg3.win 2).blk t).view.emb j) 1).val % 64 = _; rw [hc1]; show _ = (j 1).val % 64; omega)
  show k3_pay1 (F := Ideal) (iblk3 V c 0 t) (iblk3 V c 1 t) (ix2 ⟨(j 0).val, hj0⟩ ⟨(j 1).val, hj1⟩)
    = shapeCast S25000x128 (nodeDot Y W) shapeCasts_S50000x64_S25000x128 (((cfg3.win 2).blk t).view.emb j)
  rw [shapeCast_pair, hn]
  refine point_eq Y W (iblk3 V c 0 t) (iblk3 V c 1 t) (win3_2.index t (0 : Fin 2)) (fun p k n h0 h1 => ?_) (fun k q => ?_)
    ⟨(j 0).val, hj0⟩ ⟨(j 1).val, hj1⟩ _ _ rfl rfl
  · show V c (Pipeline.arrRef spec3 0) (((cfg3.win 0).blk t).view.emb (ix2 p k)) = Y n
    rw [hY, shapeCast_pair]
    refine congrArg Y (funext fun a => Fin.ext ?_)
    match a with
    | ⟨0, _⟩ =>
      show 2 * (win3_0.index t (0 : Fin 2) * 5000 + 1 * p.val) + (win3_0.index t (1 : Fin 2) * 128 + 1 * k.val) / 64 = (n 0).val
      rw [h0]; omega
    | ⟨1, _⟩ =>
      show (win3_0.index t (1 : Fin 2) * 128 + 1 * k.val) % 64 = (n 1).val
      rw [h1]; omega
  · show V c (Pipeline.arrRef spec3 1) (((cfg3.win 1).blk t).view.emb (ix2 k q)) = blockDiag W (ix2 k q)
    rw [hW]
    refine congrArg (blockDiag W) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega

/-- An index of the array is in a point's block iff each coordinate is in the block's range. -/
theorem mem_blk (t : Fin cfg3.N) (i : S25000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- Every one of the five row blocks is some grid point's. -/
theorem idx_onto : ∀ q0 : Fin 5, ∃ t : Fin cfg3.N, win3_2.index t = ![q0.val, 0] :=
  (by decide +kernel : ∀ q0 : Fin 5, ∃ t : Fin grid3.N, win3_2.index t = ![q0.val, 0])

/-- The five blocks cover the array. -/
theorem cover (i : S25000x128.Idx) : ∃ t : Fin cfg3.N, (cfg3.win 2).flush t = true ∧ i ∈ ((cfg3.win 2).blk t).view.set := by
  have hi0 : (i 0).val < 25000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array the region leaves: the lane-dense view of Y W. -/
theorem final (c : Dev nD) (Y : FVec Ideal S50000x64 .f32) (W : FVec Ideal S64x64 .f32)
    (hY : V c (Pipeline.arrRef spec3 0) = shapeCast S25000x128 Y shapeCasts_S50000x64_S25000x128)
    (hW : V c (Pipeline.arrRef spec3 1) = blockDiag W) :
    (dat3 V c).arrAt 2 cfg3.N = shapeCast S25000x128 (nodeDot Y W) shapeCasts_S50000x64_S25000x128 :=
  (dat3 V c).arrAt_eq_of_cover 2 _ (fun t _ => flushed_eq V c t Y W hY hW) cover

end Cert.KernelIdeal.Linear3

end
-- ==== Proof.Residual4.lean ====
/-
  Region 4 (residual, bias, relu over the lane-dense layout), from blocks to the whole array.

  Pointwise on [25000, 128]: out + max (agg + bias row) 0, five blocks of 5000 rows. When `out` and `agg` are the
  lane-dense views of node-major arrays Y and A, and the bias row is (b, b), the array the region leaves is the
  lane-dense view of Y + relu (A + b): entry (r, q) pairs with node 2 r + q / 64, channel q mod 64, on every operand.
-/
import proofs.«136715_j45449343926354_2_alg».proof.Proof.Gen.KernelIdeal.Frame
import proofs.«136715_j45449343926354_2_alg».proof.Proof.NodeMajor

set_option maxRecDepth 16384

noncomputable section

open scoped BigOperators

namespace Cert.KernelIdeal.Residual4

open Idealize.ShloMosaic Idealize.ShloMosaic.TcCoe Idealize.ShloMosaic.ValueIdx Idealize.SL.Sem
open Cert.KernelIdeal Cert.KernelIdeal.Gen Cert.KernelIdeal.Pairing Cert.KernelIdeal.Payloads Cert.KernelIdeal.NodeMajor
open Idealize.ShloMosaic.Pipeline (Dat)

/-- One element of one block. -/
theorem point_eq (Y A : FVec Ideal S50000x64 .f32) (b : FVec Ideal S64 .f32)
    (xo xa : Vec Ideal S5000x128 .f32) (xb : Vec Ideal S1x128 .f32) (r0 : ℕ)
    (ho : ∀ (p : Fin 5000) (k : Fin 128) (n : S50000x64.Idx), (n 0).val = 2 * (r0 * 5000 + p.val) + k.val / 64 →
      (n 1).val = k.val % 64 → xo (ix2 p k) = Y n)
    (ha : ∀ (p : Fin 5000) (k : Fin 128) (n : S50000x64.Idx), (n 0).val = 2 * (r0 * 5000 + p.val) + k.val / 64 →
      (n 1).val = k.val % 64 → xa (ix2 p k) = A n)
    (hb : ∀ q : Fin 128, xb (ix2 (0 : Fin 1) q) = bias2 b (ix2 (0 : Fin 1) q))
    (p : Fin 5000) (q : Fin 128) (n0 : Fin 50000) (n1 : Fin 64)
    (hn0 : n0.val = 2 * (r0 * 5000 + p.val) + q.val / 64) (hn1 : n1.val = q.val % 64) :
    k4_pay1 (F := Ideal) xa xb xo (ix2 p q) = nodeResidual Y A b (ix2 n0 n1) := by
  rw [residual4_apply, nodeResidual_apply, ho p q (ix2 n0 n1) hn0 hn1, ha p q (ix2 n0 n1) hn0 hn1, hb, bias2_apply]
  have e : (⟨q.val % 64, Nat.mod_lt _ (by decide)⟩ : Fin 64) = n1 := Fin.ext hn1.symm
  rw [e]

variable (V : (c : Dev nD) → (b : Ref sig .tc) → Buf (Elt Ideal) ((c : Thread nD τ).loc b))

/-- The printed index maps, decided once over the grid: both data blocks move with the output block along the rows,
    the bias row never moves. -/
theorem idx_facts : ∀ t : Fin cfg4.N, win4_0.index t (0 : Fin 2) = win4_3.index t (0 : Fin 2)
    ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 4 :=
  (by decide +kernel : ∀ t : Fin grid4.N, _)

set_option maxHeartbeats 1600000 in
/-- What a grid point writes back is its block of the lane-dense view of Y + relu (A + b). -/
theorem flushed_eq (c : Dev nD) (t : Fin cfg4.N) (Y A : FVec Ideal S50000x64 .f32) (b : FVec Ideal S64 .f32)
    (hY : V c (Pipeline.arrRef spec4 0) = shapeCast S25000x128 Y shapeCasts_S50000x64_S25000x128)
    (hA : V c (Pipeline.arrRef spec4 1) = shapeCast S25000x128 A shapeCasts_S50000x64_S25000x128)
    (hB : V c (Pipeline.arrRef spec4 2) = bias2 b) :
    (dat4 V c).flushed 3 t = ((cfg4.win 3).blk t).view.read (Elt Ideal)
      (shapeCast S25000x128 (nodeResidual Y A b) shapeCasts_S50000x64_S25000x128) := by
  show (cfg4.win 3).cut (grid4.coords t) ((dat4 V c).after 3 t) = _
  rw [after4_3]
  unfold out4_3
  rw [View.canon_unit_zero hz]
  simp only [View.ld_unit_zero (S := S5000x128) hz, View.ld_unit_zero (S := S1x128) hz]
  obtain ⟨e0, e1, e2, e3, e4, e5, e6, e7⟩ := idx_facts t
  funext j
  have hj0 : (j 0).val < 5000 := (j 0).isLt
  have hj1 : (j 1).val < 128 := (j 1).isLt
  have hc0 : ((((cfg4.win 3).blk t).view.emb j) 0).val = win4_3.index t (0 : Fin 2) * 5000 + 1 * (j 0).val := rfl
  have hc1 : ((((cfg4.win 3).blk t).view.emb j) 1).val = win4_3.index t (1 : Fin 2) * 128 + 1 * (j 1).val := rfl
  have hn : pairIdx (((cfg4.win 3).blk t).view.emb j)
      = ix2 ⟨2 * (win4_3.index t (0 : Fin 2) * 5000 + (j 0).val) + (j 1).val / 64, by omega⟩ ⟨(j 1).val % 64, Nat.mod_lt _ (by decide)⟩ :=
    funext fun a => Fin.ext (by
      match a with
      | ⟨0, _⟩ => show 2 * ((((cfg4.win 3).blk t).view.emb j) 0).val + ((((cfg4.win 3).blk t).view.emb j) 1).val / 64 = _; rw [hc0, hc1]; show _ = 2 * (win4_3.index t (0 : Fin 2) * 5000 + (j 0).val) + (j 1).val / 64; omega
      | ⟨1, _⟩ => show ((((cfg4.win 3).blk t).view.emb j) 1).val % 64 = _; rw [hc1]; show _ = (j 1).val % 64; omega)
  show k4_pay1 (F := Ideal) (iblk4 V c 1 t) (iblk4 V c 2 t) (iblk4 V c 0 t) (ix2 ⟨(j 0).val, hj0⟩ ⟨(j 1).val, hj1⟩)
    = shapeCast S25000x128 (nodeResidual Y A b) shapeCasts_S50000x64_S25000x128 (((cfg4.win 3).blk t).view.emb j)
  rw [shapeCast_pair, hn]
  refine point_eq Y A b (iblk4 V c 0 t) (iblk4 V c 1 t) (iblk4 V c 2 t) (win4_3.index t (0 : Fin 2))
    (fun p k n h0 h1 => ?_) (fun p k n h0 h1 => ?_) (fun q => ?_)
    ⟨(j 0).val, hj0⟩ ⟨(j 1).val, hj1⟩ _ _ rfl rfl
  · show V c (Pipeline.arrRef spec4 0) (((cfg4.win 0).blk t).view.emb (ix2 p k)) = Y n
    rw [hY, shapeCast_pair]
    refine congrArg Y (funext fun a => Fin.ext ?_)
    match a with
    | ⟨0, _⟩ =>
      show 2 * (win4_0.index t (0 : Fin 2) * 5000 + 1 * p.val) + (win4_0.index t (1 : Fin 2) * 128 + 1 * k.val) / 64 = (n 0).val
      rw [h0]; omega
    | ⟨1, _⟩ =>
      show (win4_0.index t (1 : Fin 2) * 128 + 1 * k.val) % 64 = (n 1).val
      rw [h1]; omega
  · show V c (Pipeline.arrRef spec4 1) (((cfg4.win 1).blk t).view.emb (ix2 p k)) = A n
    rw [hA, shapeCast_pair]
    refine congrArg A (funext fun a => Fin.ext ?_)
    match a with
    | ⟨0, _⟩ =>
      show 2 * (win4_1.index t (0 : Fin 2) * 5000 + 1 * p.val) + (win4_1.index t (1 : Fin 2) * 128 + 1 * k.val) / 64 = (n 0).val
      rw [h0]; omega
    | ⟨1, _⟩ =>
      show (win4_1.index t (1 : Fin 2) * 128 + 1 * k.val) % 64 = (n 1).val
      rw [h1]; omega
  · show V c (Pipeline.arrRef spec4 2) (((cfg4.win 2).blk t).view.emb (ix2 (0 : Fin 1) q)) = bias2 b (ix2 (0 : Fin 1) q)
    rw [hB]
    refine congrArg (bias2 b) (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega

/-- An index of the array is in a point's block iff each coordinate is in the block's range. -/
theorem mem_blk (t : Fin cfg4.N) (i : S25000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole (Pipeline.arrRef spec4 3)).slice (win4_3.rect t)).set ↔ _
  rw [View.set_slice_whole, Rect.mem_set_unit]
  exact Iff.rfl

/-- Every one of the five row blocks is some grid point's. -/
theorem idx_onto : ∀ q0 : Fin 5, ∃ t : Fin cfg4.N, win4_3.index t = ![q0.val, 0] :=
  (by decide +kernel : ∀ q0 : Fin 5, ∃ t : Fin grid4.N, win4_3.index t = ![q0.val, 0])

/-- The five blocks cover the array. -/
theorem cover (i : S25000x128.Idx) : ∃ t : Fin cfg4.N, (cfg4.win 3).flush t = true ∧ i ∈ ((cfg4.win 3).blk t).view.set := by
  have hi0 : (i 0).val < 25000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The array the region leaves: the lane-dense view of Y + relu (A + b). -/
theorem final (c : Dev nD) (Y A : FVec Ideal S50000x64 .f32) (b : FVec Ideal S64 .f32)
    (hY : V c (Pipeline.arrRef spec4 0) = shapeCast S25000x128 Y shapeCasts_S50000x64_S25000x128)
    (hA : V c (Pipeline.arrRef spec4 1) = shapeCast S25000x128 A shapeCasts_S50000x64_S25000x128)
    (hB : V c (Pipeline.arrRef spec4 2) = bias2 b) :
    (dat4 V c).arrAt 3 cfg4.N = shapeCast S25000x128 (nodeResidual Y A b) shapeCasts_S50000x64_S25000x128 :=
  (dat4 V c).arrAt_eq_of_cover 3 _ (fun t _ => flushed_eq V c t Y A b hY hA hB) cover

end Cert.KernelIdeal.Residual4

end
-- ==== Proof.Entry.lean ====
import proofs.«136715_j45449343926354_2_alg».proof.Proof.Gen.KernelIdeal.Frame
import proofs.«136715_j45449343926354_2_alg».proof.Proof.Gen.ReferenceIdeal.Read
import proofs.«136715_j45449343926354_2_alg».proof.Proof.NodeMajor

set_option maxRecDepth 16384
set_option Elab.async false

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen Cert.KernelIdeal.Pairing Cert.KernelIdeal.NodeMajor

variable (m : (ℓ : Loc nD τ sig) → Buf (Elt Ideal) ℓ) (ρ : Dev nD → PrngReg)

/-- The buffers' contents after a stretch of host operations, read one operation at a time: an operation's result at
    its own result buffer is its function of its operands, at any other buffer what was there. -/
macro "results_rw" : tactic =>
  `(tactic| repeat (first
       | rw [nullary_result] | rw [unary_result] | rw [binary_result] | rw [ternary_result] | rw [reshape_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide)))

/-! ## Typed references of the inlined `where` calls: the transport along a buffer's type is the identity -/
theorem toBuf_cst_1 (h1 : main_cst_1.ty = ⟨S_, .f32⟩) (h2 : main_cst_1.space ≠ .host) (h3 : main_cst_1.isScoped = false) (v : (⟨S_, .f32⟩ : BufTy).Contents (Elt Ideal)) :
    (TRef.of (sig := sig) main_cst_1 h1 h2 h3).toBuf (Val := Elt Ideal) v = v := rfl
theorem ofBuf_cst_1 (h1 : main_cst_1.ty = ⟨S_, .f32⟩) (h2 : main_cst_1.space ≠ .host) (h3 : main_cst_1.isScoped = false) (v : (⟨S_, .f32⟩ : BufTy).Contents (Elt Ideal)) :
    (TRef.of (sig := sig) main_cst_1 h1 h2 h3).ofBuf (Val := Elt Ideal) v = v := rfl
theorem toBuf_call0_v0 (h1 : main_call0_v0.ty = ⟨S_, .f32⟩) (h2 : main_call0_v0.space ≠ .host) (h3 : main_call0_v0.isScoped = false) (v : (⟨S_, .f32⟩ : BufTy).Contents (Elt Ideal)) :
    (TRef.of (sig := sig) main_call0_v0 h1 h2 h3).toBuf (Val := Elt Ideal) v = v := rfl
theorem ofBuf_call0_v0 (h1 : main_call0_v0.ty = ⟨S_, .f32⟩) (h2 : main_call0_v0.space ≠ .host) (h3 : main_call0_v0.isScoped = false) (v : (⟨S_, .f32⟩ : BufTy).Contents (Elt Ideal)) :
    (TRef.of (sig := sig) main_call0_v0 h1 h2 h3).ofBuf (Val := Elt Ideal) v = v := rfl
theorem toBuf_call0_v1 (h1 : main_call0_v1.ty = ⟨S50000, .f32⟩) (h2 : main_call0_v1.space ≠ .host) (h3 : main_call0_v1.isScoped = false) (v : (⟨S50000, .f32⟩ : BufTy).Contents (Elt Ideal)) :
    (TRef.of (sig := sig) main_call0_v1 h1 h2 h3).toBuf (Val := Elt Ideal) v = v := rfl
theorem ofBuf_call0_v1 (h1 : main_call0_v1.ty = ⟨S50000, .f32⟩) (h2 : main_call0_v1.space ≠ .host) (h3 : main_call0_v1.isScoped = false) (v : (⟨S50000, .f32⟩ : BufTy).Contents (Elt Ideal)) :
    (TRef.of (sig := sig) main_call0_v1 h1 h2 h3).ofBuf (Val := Elt Ideal) v = v := rfl
theorem toBuf_v8 (h1 : main_v8.ty = ⟨S50000, .i1⟩) (h2 : main_v8.space ≠ .host) (h3 : main_v8.isScoped = false) (v : (⟨S50000, .i1⟩ : BufTy).Contents (Elt Ideal)) :
    (TRef.of (sig := sig) main_v8 h1 h2 h3).toBuf (Val := Elt Ideal) v = v := rfl
theorem ofBuf_v8 (h1 : main_v8.ty = ⟨S50000, .i1⟩) (h2 : main_v8.space ≠ .host) (h3 : main_v8.isScoped = false) (v : (⟨S50000, .i1⟩ : BufTy).Contents (Elt Ideal)) :
    (TRef.of (sig := sig) main_v8 h1 h2 h3).ofBuf (Val := Elt Ideal) v = v := rfl
theorem toBuf_v6 (h1 : main_v6.ty = ⟨S50000, .f32⟩) (h2 : main_v6.space ≠ .host) (h3 : main_v6.isScoped = false) (v : (⟨S50000, .f32⟩ : BufTy).Contents (Elt Ideal)) :
    (TRef.of (sig := sig) main_v6 h1 h2 h3).toBuf (Val := Elt Ideal) v = v := rfl
theorem ofBuf_v6 (h1 : main_v6.ty = ⟨S50000, .f32⟩) (h2 : main_v6.space ≠ .host) (h3 : main_v6.isScoped = false) (v : (⟨S50000, .f32⟩ : BufTy).Contents (Elt Ideal)) :
    (TRef.of (sig := sig) main_v6 h1 h2 h3).ofBuf (Val := Elt Ideal) v = v := rfl
theorem toBuf_v9 (h1 : main_v9.ty = ⟨S50000, .f32⟩) (h2 : main_v9.space ≠ .host) (h3 : main_v9.isScoped = false) (v : (⟨S50000, .f32⟩ : BufTy).Contents (Elt Ideal)) :
    (TRef.of (sig := sig) main_v9 h1 h2 h3).toBuf (Val := Elt Ideal) v = v := rfl
theorem ofBuf_v9 (h1 : main_v9.ty = ⟨S50000, .f32⟩) (h2 : main_v9.space ≠ .host) (h3 : main_v9.isScoped = false) (v : (⟨S50000, .f32⟩ : BufTy).Contents (Elt Ideal)) :
    (TRef.of (sig := sig) main_v9 h1 h2 h3).ofBuf (Val := Elt Ideal) v = v := rfl
theorem toBuf_cst_3 (h1 : main_cst_3.ty = ⟨S_, .f32⟩) (h2 : main_cst_3.space ≠ .host) (h3 : main_cst_3.isScoped = false) (v : (⟨S_, .f32⟩ : BufTy).Contents (Elt Ideal)) :
    (TRef.of (sig := sig) main_cst_3 h1 h2 h3).toBuf (Val := Elt Ideal) v = v := rfl
theorem ofBuf_cst_3 (h1 : main_cst_3.ty = ⟨S_, .f32⟩) (h2 : main_cst_3.space ≠ .host) (h3 : main_cst_3.isScoped = false) (v : (⟨S_, .f32⟩ : BufTy).Contents (Elt Ideal)) :
    (TRef.of (sig := sig) main_cst_3 h1 h2 h3).ofBuf (Val := Elt Ideal) v = v := rfl
theorem toBuf_call1_v0 (h1 : main_call1_v0.ty = ⟨S_, .f32⟩) (h2 : main_call1_v0.space ≠ .host) (h3 : main_call1_v0.isScoped = false) (v : (⟨S_, .f32⟩ : BufTy).Contents (Elt Ideal)) :
    (TRef.of (sig := sig) main_call1_v0 h1 h2 h3).toBuf (Val := Elt Ideal) v = v := rfl
theorem ofBuf_call1_v0 (h1 : main_call1_v0.ty = ⟨S_, .f32⟩) (h2 : main_call1_v0.space ≠ .host) (h3 : main_call1_v0.isScoped = false) (v : (⟨S_, .f32⟩ : BufTy).Contents (Elt Ideal)) :
    (TRef.of (sig := sig) main_call1_v0 h1 h2 h3).ofBuf (Val := Elt Ideal) v = v := rfl
theorem toBuf_call1_v1 (h1 : main_call1_v1.ty = ⟨S50000, .f32⟩) (h2 : main_call1_v1.space ≠ .host) (h3 : main_call1_v1.isScoped = false) (v : (⟨S50000, .f32⟩ : BufTy).Contents (Elt Ideal)) :
    (TRef.of (sig := sig) main_call1_v1 h1 h2 h3).toBuf (Val := Elt Ideal) v = v := rfl
theorem ofBuf_call1_v1 (h1 : main_call1_v1.ty = ⟨S50000, .f32⟩) (h2 : main_call1_v1.space ≠ .host) (h3 : main_call1_v1.isScoped = false) (v : (⟨S50000, .f32⟩ : BufTy).Contents (Elt Ideal)) :
    (TRef.of (sig := sig) main_call1_v1 h1 h2 h3).ofBuf (Val := Elt Ideal) v = v := rfl
theorem toBuf_v11 (h1 : main_v11.ty = ⟨S50000, .i1⟩) (h2 : main_v11.space ≠ .host) (h3 : main_v11.isScoped = false) (v : (⟨S50000, .i1⟩ : BufTy).Contents (Elt Ideal)) :
    (TRef.of (sig := sig) main_v11 h1 h2 h3).toBuf (Val := Elt Ideal) v = v := rfl
theorem ofBuf_v11 (h1 : main_v11.ty = ⟨S50000, .i1⟩) (h2 : main_v11.space ≠ .host) (h3 : main_v11.isScoped = false) (v : (⟨S50000, .i1⟩ : BufTy).Contents (Elt Ideal)) :
    (TRef.of (sig := sig) main_v11 h1 h2 h3).ofBuf (Val := Elt Ideal) v = v := rfl
theorem toBuf_v12 (h1 : main_v12.ty = ⟨S50000, .f32⟩) (h2 : main_v12.space ≠ .host) (h3 : main_v12.isScoped = false) (v : (⟨S50000, .f32⟩ : BufTy).Contents (Elt Ideal)) :
    (TRef.of (sig := sig) main_v12 h1 h2 h3).toBuf (Val := Elt Ideal) v = v := rfl
theorem ofBuf_v12 (h1 : main_v12.ty = ⟨S50000, .f32⟩) (h2 : main_v12.space ≠ .host) (h3 : main_v12.isScoped = false) (v : (⟨S50000, .f32⟩ : BufTy).Contents (Elt Ideal)) :
    (TRef.of (sig := sig) main_v12 h1 h2 h3).ofBuf (Val := Elt Ideal) v = v := rfl
theorem toBuf_v13 (h1 : main_v13.ty = ⟨S50000, .f32⟩) (h2 : main_v13.space ≠ .host) (h3 : main_v13.isScoped = false) (v : (⟨S50000, .f32⟩ : BufTy).Contents (Elt Ideal)) :
    (TRef.of (sig := sig) main_v13 h1 h2 h3).toBuf (Val := Elt Ideal) v = v := rfl
theorem ofBuf_v13 (h1 : main_v13.ty = ⟨S50000, .f32⟩) (h2 : main_v13.space ≠ .host) (h3 : main_v13.isScoped = false) (v : (⟨S50000, .f32⟩ : BufTy).Contents (Elt Ideal)) :
    (TRef.of (sig := sig) main_v13 h1 h2 h3).ofBuf (Val := Elt Ideal) v = v := rfl

/-! ## The edge normalisation, one stretch of host operations at a time

Each stretch is read with the buffers it starts from already named as the reference's stages of the same arguments:
the scatter-added degree, its positivity mask, the guarded degree, its reciprocal square root, the guarded reciprocal,
and last the product d^(-1/2)[src] · w · d^(-1/2)[dst] over the edges. -/

theorem F1_v6 (c : Dev nD) : W1 m ρ c (Proc.devRef .tc main_v6) = (Cert.ReferenceIdeal.Read.val_main_v6 (F := Ideal) (m ((c : Thread nD τ).loc main_arg1)) (m ((c : Thread nD τ).loc main_arg2))) := by
  show StableHlo.after hostOps0 (W0 m ρ c) (Proc.devRef .tc main_v6) = _
  after_results_simp
  try rfl

theorem F1_v8 (c : Dev nD) : W1 m ρ c (Proc.devRef .tc main_v8) = (Cert.ReferenceIdeal.Read.val_main_v8 (F := Ideal) (m ((c : Thread nD τ).loc main_arg1)) (m ((c : Thread nD τ).loc main_arg2))) := by
  show StableHlo.after hostOps0 (W0 m ρ c) (Proc.devRef .tc main_v8) = _
  after_results_simp
  try rfl

theorem F1_cst_1 (c : Dev nD) : W1 m ρ c (Proc.devRef .tc main_cst_1) = (Cert.ReferenceIdeal.Read.val_main_cst_1 (F := Ideal)) := by
  show StableHlo.after hostOps0 (W0 m ρ c) (Proc.devRef .tc main_cst_1) = _
  after_results_simp
  try rfl

set_option maxHeartbeats 2000000 in
theorem F2_v9 (c : Dev nD) : W2 m ρ c (Proc.devRef .tc main_v9) = (Cert.ReferenceIdeal.Read.val_main_v9 (F := Ideal) (m ((c : Thread nD τ).loc main_arg1)) (m ((c : Thread nD τ).loc main_arg2))) := by
  have h0 := F1_v8 m ρ c
  have h1 := F1_v6 m ρ c
  have h2 := F1_cst_1 m ρ c
  show StableHlo.after hostOps0_1 (W1 m ρ c) (Proc.devRef .tc main_v9) = _
  generalize W1 m ρ c = F at h0 h1 h2 ⊢
  after_results_simp
  simp only [toBuf_cst_1, ofBuf_cst_1, toBuf_call0_v0, ofBuf_call0_v0, toBuf_call0_v1, ofBuf_call0_v1, toBuf_v8, ofBuf_v8, toBuf_v6, ofBuf_v6, toBuf_v9, ofBuf_v9, toBuf_cst_3, ofBuf_cst_3, toBuf_call1_v0, ofBuf_call1_v0, toBuf_call1_v1, ofBuf_call1_v1, toBuf_v11, ofBuf_v11, toBuf_v12, ofBuf_v12, toBuf_v13, ofBuf_v13]
  rw [h0, h1, h2]
  try rfl

set_option maxHeartbeats 2000000 in
theorem F2_v6 (c : Dev nD) : W2 m ρ c (Proc.devRef .tc main_v6) = (Cert.ReferenceIdeal.Read.val_main_v6 (F := Ideal) (m ((c : Thread nD τ).loc main_arg1)) (m ((c : Thread nD τ).loc main_arg2))) := by
  have h0 := F1_v6 m ρ c
  show StableHlo.after hostOps0_1 (W1 m ρ c) (Proc.devRef .tc main_v6) = _
  generalize W1 m ρ c = F at h0 ⊢
  after_results_simp
  rw [h0]
  try rfl

set_option maxHeartbeats 2000000 in
theorem F3_v11 (c : Dev nD) : W3 m ρ c (Proc.devRef .tc main_v11) = (Cert.ReferenceIdeal.Read.val_main_v11 (F := Ideal) (m ((c : Thread nD τ).loc main_arg1)) (m ((c : Thread nD τ).loc main_arg2))) := by
  have h0 := F2_v6 m ρ c
  show StableHlo.after hostOps0_2 (W2 m ρ c) (Proc.devRef .tc main_v11) = _
  generalize W2 m ρ c = F at h0 ⊢
  after_results_simp
  rw [h0]
  try rfl

set_option maxHeartbeats 2000000 in
theorem F3_v12 (c : Dev nD) : W3 m ρ c (Proc.devRef .tc main_v12) = (Cert.ReferenceIdeal.Read.val_main_v12 (F := Ideal) (m ((c : Thread nD τ).loc main_arg1)) (m ((c : Thread nD τ).loc main_arg2))) := by
  have h0 := F2_v9 m ρ c
  show StableHlo.after hostOps0_2 (W2 m ρ c) (Proc.devRef .tc main_v12) = _
  generalize W2 m ρ c = F at h0 ⊢
  after_results_simp
  rw [h0]
  try rfl

theorem F3_cst_3 (c : Dev nD) : W3 m ρ c (Proc.devRef .tc main_cst_3) = (Cert.ReferenceIdeal.Read.val_main_cst_3 (F := Ideal)) := by
  show StableHlo.after hostOps0_2 (StableHlo.after hostOps0_1 (StableHlo.after hostOps0 (W0 m ρ c))) (Proc.devRef .tc main_cst_3) = _
  after_results_simp
  try rfl

set_option maxHeartbeats 2000000 in
theorem F4_v13 (c : Dev nD) : W4 m ρ c (Proc.devRef .tc main_v13) = (Cert.ReferenceIdeal.Read.val_main_v13 (F := Ideal) (m ((c : Thread nD τ).loc main_arg1)) (m ((c : Thread nD τ).loc main_arg2))) := by
  have h0 := F3_v11 m ρ c
  have h1 := F3_v12 m ρ c
  have h2 := F3_cst_3 m ρ c
  show StableHlo.after hostOps0_3 (W3 m ρ c) (Proc.devRef .tc main_v13) = _
  generalize W3 m ρ c = F at h0 h1 h2 ⊢
  after_results_simp
  simp only [toBuf_cst_1, ofBuf_cst_1, toBuf_call0_v0, ofBuf_call0_v0, toBuf_call0_v1, ofBuf_call0_v1, toBuf_v8, ofBuf_v8, toBuf_v6, ofBuf_v6, toBuf_v9, ofBuf_v9, toBuf_cst_3, ofBuf_cst_3, toBuf_call1_v0, ofBuf_call1_v0, toBuf_call1_v1, ofBuf_call1_v1, toBuf_v11, ofBuf_v11, toBuf_v12, ofBuf_v12, toBuf_v13, ofBuf_v13]
  rw [h0, h1, h2]
  try rfl

theorem F4_v1 (c : Dev nD) : W4 m ρ c (Proc.devRef .tc main_v1) = (Cert.ReferenceIdeal.Read.val_main_v1 (F := Ideal) (m ((c : Thread nD τ).loc main_arg1))) := by
  show StableHlo.after hostOps0_3 (StableHlo.after hostOps0_2 (StableHlo.after hostOps0_1 (StableHlo.after hostOps0 (W0 m ρ c)))) (Proc.devRef .tc main_v1) = _
  after_results_simp
  try rfl

theorem F4_v3 (c : Dev nD) : W4 m ρ c (Proc.devRef .tc main_v3) = (Cert.ReferenceIdeal.Read.val_main_v3 (F := Ideal) (m ((c : Thread nD τ).loc main_arg1))) := by
  show StableHlo.after hostOps0_3 (StableHlo.after hostOps0_2 (StableHlo.after hostOps0_1 (StableHlo.after hostOps0 (W0 m ρ c)))) (Proc.devRef .tc main_v3) = _
  after_results_simp
  try rfl

theorem F4_arg2 (c : Dev nD) : W4 m ρ c (Proc.devRef .tc main_arg2) = (m ((c : Thread nD τ).loc main_arg2)) := by
  show StableHlo.after hostOps0_3 (StableHlo.after hostOps0_2 (StableHlo.after hostOps0_1 (StableHlo.after hostOps0 (W0 m ρ c)))) (Proc.devRef .tc main_arg2) = _
  after_results_simp
  try rfl

/-! ## Region 0's entry: the buffers the first five stretches of host operations leave -/

set_option maxHeartbeats 2000000 in
theorem E5_v29 (c : Dev nD) : W5 m ρ c (Proc.devRef .tc main_v29) = (Cert.ReferenceIdeal.Read.val_main_v29 (F := Ideal) (m ((c : Thread nD τ).loc main_arg1)) (m ((c : Thread nD τ).loc main_arg2))) := by
  have h0 := F4_v13 m ρ c
  have h1 := F4_v1 m ρ c
  have h2 := F4_v3 m ρ c
  have h3 := F4_arg2 m ρ c
  show StableHlo.after hostOps0_4 (W4 m ρ c) (Proc.devRef .tc main_v29) = _
  generalize W4 m ρ c = F at h0 h1 h2 h3 ⊢
  after_results_simp
  rw [h0, h1, h2, h3]
  try rfl

theorem E5_v1 (c : Dev nD) : W5 m ρ c (Proc.devRef .tc main_v1) = (Cert.ReferenceIdeal.Read.val_main_v1 (F := Ideal) (m ((c : Thread nD τ).loc main_arg1))) := by
  show StableHlo.after hostOps0_4 (StableHlo.after hostOps0_3 (StableHlo.after hostOps0_2 (StableHlo.after hostOps0_1 (StableHlo.after hostOps0 (W0 m ρ c))))) (Proc.devRef .tc main_v1) = _
  after_results_simp
  try rfl

theorem E5_v3 (c : Dev nD) : W5 m ρ c (Proc.devRef .tc main_v3) = (Cert.ReferenceIdeal.Read.val_main_v3 (F := Ideal) (m ((c : Thread nD τ).loc main_arg1))) := by
  show StableHlo.after hostOps0_4 (StableHlo.after hostOps0_3 (StableHlo.after hostOps0_2 (StableHlo.after hostOps0_1 (StableHlo.after hostOps0 (W0 m ρ c))))) (Proc.devRef .tc main_v3) = _
  after_results_simp
  try rfl

theorem E5_v30 (c : Dev nD) : W5 m ρ c (Proc.devRef .tc main_v30) = shapeCast S25000x128 (m ((c : Thread nD τ).loc main_arg0)) shapeCasts_S50000x64_S25000x128 := by
  show StableHlo.after hostOps0_4 (StableHlo.after hostOps0_3 (StableHlo.after hostOps0_2 (StableHlo.after hostOps0_1 (StableHlo.after hostOps0 (W0 m ρ c))))) (Proc.devRef .tc main_v30) = _
  after_results_simp
  try rfl

set_option maxHeartbeats 8000000 in
theorem E5_v34 (c : Dev nD) : W5 m ρ c (Proc.devRef .tc main_v34) = blockDiag (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_v34) = _
  after_results_simp
  results_rw
  try rfl
set_option maxHeartbeats 4000000 in
theorem E5_v36 (c : Dev nD) : W5 m ρ c (Proc.devRef .tc main_v36) = bias2 (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_v36) = _
  after_results_simp
  results_rw
  try rfl
theorem E5_arg6 (c : Dev nD) : W5 m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp
  try rfl

theorem E5_arg7 (c : Dev nD) : W5 m ρ c (Proc.devRef .tc main_arg7) = (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_arg7) = _
  after_results_simp
  try rfl

end Cert.KernelIdeal.Entry

end
-- ==== Proof.Stages.lean ====
/-
  The idealized kernel program's buffers, boundary by boundary, as the reference's stages.

  @main alternates stretches of host operations and pipelined regions. Walking the boundaries from the launch:
  every lane-dense array a region reads or leaves is the lane-dense view of a node-major stage of the reference
  (relu (X W + b); H = Y W; Y + relu (A + b)), and every host stretch in between is the reference's own operations
  (reshape back to node-major, gather by source, scale by the edge norm, scatter-add by destination, reshape to the
  lane-dense view) applied to equal operands. The last reshape back undoes the view, so the result buffer holds the
  reference's last stage.
-/
import proofs.«136715_j45449343926354_2_alg».proof.Proof.Gen.KernelIdeal.Frame
import proofs.«136715_j45449343926354_2_alg».proof.Proof.Gen.ReferenceIdeal.Read
import proofs.«136715_j45449343926354_2_alg».proof.Proof.NodeMajor
import proofs.«136715_j45449343926354_2_alg».proof.Proof.LinRelu0
import proofs.«136715_j45449343926354_2_alg».proof.Proof.Linear1
import proofs.«136715_j45449343926354_2_alg».proof.Proof.Residual2
import proofs.«136715_j45449343926354_2_alg».proof.Proof.Linear3
import proofs.«136715_j45449343926354_2_alg».proof.Proof.Residual4
import proofs.«136715_j45449343926354_2_alg».proof.Proof.Entry

set_option maxRecDepth 16384
set_option Elab.async false

noncomputable section

namespace Cert.KernelIdeal.Stages

open Idealize.ShloMosaic Idealize.ShloMosaic.TcCoe Idealize.ShloMosaic.ValueIdx Idealize.SL.Sem Idealize.ShloMosaic.StableHlo
open Cert.KernelIdeal Cert.KernelIdeal.Gen Cert.KernelIdeal.Pairing Cert.KernelIdeal.NodeMajor Cert.KernelIdeal.Entry

variable (m : (ℓ : Loc nD τ sig) → Buf (Elt Ideal) ℓ) (ρ : Dev nD → PrngReg)

/-! ## The host's graph propagation, and the reference's stages as the layers' node-major functions -/

/-- Gather the rows of `H` by source node, scale each by its edge norm, scatter-add by destination node (with the
    host's wrap of negative indices), starting from zeros. -/
def propagate (src dst : (⟨S1000000, .i32⟩ : BufTy).Contents (Elt Ideal)) (norm : (⟨S1000000, .f32⟩ : BufTy).Contents (Elt Ideal))
    (H : FVec Ideal S50000x64 .f32) : FVec Ideal S50000x64 .f32 :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 dst)
    (mulf (broadcastInDim S1000000x64 ![0, 1] bcast_S1000000x1_S1000000x64_0_1 (broadcastInDim S1000000x1 ![0] bcast_S1000000_S1000000x1_0 norm))
      (Host.gather gather_S50000x64_S1000000x1_S1000000x64_1_0_n_n_0_1_164 H
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))

section Reference
variable (x0 : (⟨S50000x64, .f32⟩ : BufTy).Contents (Elt Ideal)) (x1 : (⟨S2x1000000, .i32⟩ : BufTy).Contents (Elt Ideal)) (x2 : (⟨S1000000, .f32⟩ : BufTy).Contents (Elt Ideal)) (x4 : (⟨S64x64, .f32⟩ : BufTy).Contents (Elt Ideal)) (x5 : (⟨S64, .f32⟩ : BufTy).Contents (Elt Ideal)) (x6 : (⟨S2x64x64, .f32⟩ : BufTy).Contents (Elt Ideal)) (x7 : (⟨S2x64, .f32⟩ : BufTy).Contents (Elt Ideal))

theorem dot_eq37 : nodeDot (Cert.ReferenceIdeal.Read.val_main_v34 (F := Ideal) x0 x4 x5) (Cert.ReferenceIdeal.Read.val_main_v36 (F := Ideal) x6)
    = Cert.ReferenceIdeal.Read.val_main_v37 (F := Ideal) x0 x4 x5 x6 := rfl
theorem prop_eq50 : propagate (Cert.ReferenceIdeal.Read.val_main_v1 (F := Ideal) x1) (Cert.ReferenceIdeal.Read.val_main_v3 (F := Ideal) x1) (Cert.ReferenceIdeal.Read.val_main_v29 (F := Ideal) x1 x2)
    (Cert.ReferenceIdeal.Read.val_main_v37 (F := Ideal) x0 x4 x5 x6) = Cert.ReferenceIdeal.Read.val_main_v50 (F := Ideal) x0 x1 x2 x4 x5 x6 := rfl
theorem res_eq57 : nodeResidual (Cert.ReferenceIdeal.Read.val_main_v34 (F := Ideal) x0 x4 x5) (Cert.ReferenceIdeal.Read.val_main_v50 (F := Ideal) x0 x1 x2 x4 x5 x6) (Cert.ReferenceIdeal.Read.val_main_v52 (F := Ideal) x7)
    = Cert.ReferenceIdeal.Read.val_main_v57 (F := Ideal) x0 x1 x2 x4 x5 x6 x7 := rfl
theorem dot_eq60 : nodeDot (Cert.ReferenceIdeal.Read.val_main_v57 (F := Ideal) x0 x1 x2 x4 x5 x6 x7) (Cert.ReferenceIdeal.Read.val_main_v59 (F := Ideal) x6)
    = Cert.ReferenceIdeal.Read.val_main_v60 (F := Ideal) x0 x1 x2 x4 x5 x6 x7 := rfl
theorem prop_eq73 : propagate (Cert.ReferenceIdeal.Read.val_main_v1 (F := Ideal) x1) (Cert.ReferenceIdeal.Read.val_main_v3 (F := Ideal) x1) (Cert.ReferenceIdeal.Read.val_main_v29 (F := Ideal) x1 x2)
    (Cert.ReferenceIdeal.Read.val_main_v60 (F := Ideal) x0 x1 x2 x4 x5 x6 x7) = Cert.ReferenceIdeal.Read.val_main_v73 (F := Ideal) x0 x1 x2 x4 x5 x6 x7 := rfl
theorem res_eq80 : nodeResidual (Cert.ReferenceIdeal.Read.val_main_v57 (F := Ideal) x0 x1 x2 x4 x5 x6 x7) (Cert.ReferenceIdeal.Read.val_main_v73 (F := Ideal) x0 x1 x2 x4 x5 x6 x7) (Cert.ReferenceIdeal.Read.val_main_v75 (F := Ideal) x7)
    = Cert.ReferenceIdeal.Read.val_main_v80 (F := Ideal) x0 x1 x2 x4 x5 x6 x7 := rfl

end Reference

/-! ## Region 0 leaves relu (X W + b) in the lane-dense layout; everything else is carried -/

theorem E6_v37 (c : Dev nD) : W6 m ρ c (Proc.devRef .tc main_v37) = shapeCast S25000x128 (Cert.ReferenceIdeal.Read.val_main_v34 (F := Ideal) (m ((c : Thread nD τ).loc main_arg0)) (m ((c : Thread nD τ).loc main_arg4)) (m ((c : Thread nD τ).loc main_arg5))) shapeCasts_S50000x64_S25000x128 :=
  (W6_arr m ρ c 3).trans (LinRelu0.final (V5 m ρ) c (m ((c : Thread nD τ).loc main_arg0)) (m ((c : Thread nD τ).loc main_arg4)) (m ((c : Thread nD τ).loc main_arg5)) (E5_v30 m ρ c) (E5_v34 m ρ c) (E5_v36 m ρ c))
theorem E6_v1 (c : Dev nD) : W6 m ρ c (Proc.devRef .tc main_v1) = (Cert.ReferenceIdeal.Read.val_main_v1 (F := Ideal) (m ((c : Thread nD τ).loc main_arg1))) :=
  (W6_of_ne m ρ c main_v1 (by decide)).trans (E5_v1 m ρ c)
theorem E6_v3 (c : Dev nD) : W6 m ρ c (Proc.devRef .tc main_v3) = (Cert.ReferenceIdeal.Read.val_main_v3 (F := Ideal) (m ((c : Thread nD τ).loc main_arg1))) :=
  (W6_of_ne m ρ c main_v3 (by decide)).trans (E5_v3 m ρ c)
theorem E6_v29 (c : Dev nD) : W6 m ρ c (Proc.devRef .tc main_v29) = (Cert.ReferenceIdeal.Read.val_main_v29 (F := Ideal) (m ((c : Thread nD τ).loc main_arg1)) (m ((c : Thread nD τ).loc main_arg2))) :=
  (W6_of_ne m ρ c main_v29 (by decide)).trans (E5_v29 m ρ c)
theorem E6_arg6 (c : Dev nD) : W6 m ρ c (Proc.devRef .tc main_arg6) = (m ((c : Thread nD τ).loc main_arg6)) :=
  (W6_of_ne m ρ c main_arg6 (by decide)).trans (E5_arg6 m ρ c)
theorem E6_arg7 (c : Dev nD) : W6 m ρ c (Proc.devRef .tc main_arg7) = (m ((c : Thread nD τ).loc main_arg7)) :=
  (W6_of_ne m ρ c main_arg7 (by decide)).trans (E5_arg7 m ρ c)

/-! ## The first conv layer's linear transform (region 1) -/

theorem H7_v37 (c : Dev nD) : W7 m ρ c (Proc.devRef .tc main_v37) = shapeCast S25000x128 (Cert.ReferenceIdeal.Read.val_main_v34 (F := Ideal) (m ((c : Thread nD τ).loc main_arg0)) (m ((c : Thread nD τ).loc main_arg4)) (m ((c : Thread nD τ).loc main_arg5))) shapeCasts_S50000x64_S25000x128 := by
  show StableHlo.after hostOps1 (W6 m ρ c) (Proc.devRef .tc main_v37) = _
  after_results_simp
  exact E6_v37 m ρ c

set_option maxHeartbeats 8000000 in
theorem H7_v43 (c : Dev nD) : W7 m ρ c (Proc.devRef .tc main_v43) = blockDiag (Cert.ReferenceIdeal.Read.val_main_v36 (F := Ideal) (m ((c : Thread nD τ).loc main_arg6))) := by
  show StableHlo.after hostOps1 (W6 m ρ c) (Proc.devRef .tc main_v43) = _
  after_results_simp
  results_rw
  rw [E6_arg6 m ρ c]
  rfl

theorem E8_v44 (c : Dev nD) : W8 m ρ c (Proc.devRef .tc main_v44) = shapeCast S25000x128 (Cert.ReferenceIdeal.Read.val_main_v37 (F := Ideal) (m ((c : Thread nD τ).loc main_arg0)) (m ((c : Thread nD τ).loc main_arg4)) (m ((c : Thread nD τ).loc main_arg5)) (m ((c : Thread nD τ).loc main_arg6))) shapeCasts_S50000x64_S25000x128 :=
  (W8_arr m ρ c 2).trans ((Linear1.final (V7 m ρ) c (Cert.ReferenceIdeal.Read.val_main_v34 (F := Ideal) (m ((c : Thread nD τ).loc main_arg0)) (m ((c : Thread nD τ).loc main_arg4)) (m ((c : Thread nD τ).loc main_arg5))) (Cert.ReferenceIdeal.Read.val_main_v36 (F := Ideal) (m ((c : Thread nD τ).loc main_arg6))) (H7_v37 m ρ c) (H7_v43 m ρ c)).trans
    (congrArg (fun X => shapeCast S25000x128 X shapeCasts_S50000x64_S25000x128) (dot_eq37 (m ((c : Thread nD τ).loc main_arg0)) (m ((c : Thread nD τ).loc main_arg4)) (m ((c : Thread nD τ).loc main_arg5)) (m ((c : Thread nD τ).loc main_arg6)))))
theorem E8_v1 (c : Dev nD) : W8 m ρ c (Proc.devRef .tc main_v1) = (Cert.ReferenceIdeal.Read.val_main_v1 (F := Ideal) (m ((c : Thread nD τ).loc main_arg1))) :=
  (W8_of_ne m ρ c main_v1 (by decide)).trans (by
    show StableHlo.after hostOps1 (W6 m ρ c) (Proc.devRef .tc main_v1) = _
    after_results_simp
    exact E6_v1 m ρ c)
theorem E8_v3 (c : Dev nD) : W8 m ρ c (Proc.devRef .tc main_v3) = (Cert.ReferenceIdeal.Read.val_main_v3 (F := Ideal) (m ((c : Thread nD τ).loc main_arg1))) :=
  (W8_of_ne m ρ c main_v3 (by decide)).trans (by
    show StableHlo.after hostOps1 (W6 m ρ c) (Proc.devRef .tc main_v3) = _
    after_results_simp
    exact E6_v3 m ρ c)
theorem E8_v29 (c : Dev nD) : W8 m ρ c (Proc.devRef .tc main_v29) = (Cert.ReferenceIdeal.Read.val_main_v29 (F := Ideal) (m ((c : Thread nD τ).loc main_arg1)) (m ((c : Thread nD τ).loc main_arg2))) :=
  (W8_of_ne m ρ c main_v29 (by decide)).trans (by
    show StableHlo.after hostOps1 (W6 m ρ c) (Proc.devRef .tc main_v29) = _
    after_results_simp
    exact E6_v29 m ρ c)
theorem E8_arg6 (c : Dev nD) : W8 m ρ c (Proc.devRef .tc main_arg6) = (m ((c : Thread nD τ).loc main_arg6)) :=
  (W8_of_ne m ρ c main_arg6 (by decide)).trans (by
    show StableHlo.after hostOps1 (W6 m ρ c) (Proc.devRef .tc main_arg6) = _
    after_results_simp
    exact E6_arg6 m ρ c)
theorem E8_arg7 (c : Dev nD) : W8 m ρ c (Proc.devRef .tc main_arg7) = (m ((c : Thread nD τ).loc main_arg7)) :=
  (W8_of_ne m ρ c main_arg7 (by decide)).trans (by
    show StableHlo.after hostOps1 (W6 m ρ c) (Proc.devRef .tc main_arg7) = _
    after_results_simp
    exact E6_arg7 m ρ c)
theorem E8_v37 (c : Dev nD) : W8 m ρ c (Proc.devRef .tc main_v37) = shapeCast S25000x128 (Cert.ReferenceIdeal.Read.val_main_v34 (F := Ideal) (m ((c : Thread nD τ).loc main_arg0)) (m ((c : Thread nD τ).loc main_arg4)) (m ((c : Thread nD τ).loc main_arg5))) shapeCasts_S50000x64_S25000x128 :=
  (W8_arr m ρ c 0).trans (((dat1 (V7 m ρ) c).arrAt_in 0 rfl cfg1.N).trans ((A_eq1 (V7 m ρ) c 0).trans (H7_v37 m ρ c)))

/-! ## The first conv layer's gather, scale, scatter-add on the host, and its residual epilogue (region 2) -/

theorem H9_v37 (c : Dev nD) : W9 m ρ c (Proc.devRef .tc main_v37) = shapeCast S25000x128 (Cert.ReferenceIdeal.Read.val_main_v34 (F := Ideal) (m ((c : Thread nD τ).loc main_arg0)) (m ((c : Thread nD τ).loc main_arg4)) (m ((c : Thread nD τ).loc main_arg5))) shapeCasts_S50000x64_S25000x128 := by
  show StableHlo.after hostOps2 (W8 m ρ c) (Proc.devRef .tc main_v37) = _
  after_results_simp
  exact E8_v37 m ρ c

set_option maxHeartbeats 4000000 in
theorem H9_v59 (c : Dev nD) : W9 m ρ c (Proc.devRef .tc main_v59) = shapeCast S25000x128 (Cert.ReferenceIdeal.Read.val_main_v50 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) shapeCasts_S50000x64_S25000x128 := by
  show StableHlo.after hostOps2 (W8 m ρ c) (Proc.devRef .tc main_v59) = _
  after_results_simp
  rw [E8_v1 m ρ c, E8_v3 m ρ c, E8_v29 m ρ c, E8_v44 m ρ c]
  exact (congrArg (fun H => shapeCast S25000x128 (propagate (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v29 (F := Ideal) (m ((c : Thread nD τ).loc main_arg1)) (m ((c : Thread nD τ).loc main_arg2))) H) shapeCasts_S50000x64_S25000x128)
      (shapeCast_shapeCast (Cert.ReferenceIdeal.Read.val_main_v37 (F := Ideal) (m ((c : Thread nD τ).loc main_arg0)) (m ((c : Thread nD τ).loc main_arg4)) (m ((c : Thread nD τ).loc main_arg5)) (m ((c : Thread nD τ).loc main_arg6))) shapeCasts_S50000x64_S25000x128 shapeCasts_S25000x128_S50000x64)).trans
    (congrArg (fun X => shapeCast S25000x128 X shapeCasts_S50000x64_S25000x128) (prop_eq50 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))))

set_option maxHeartbeats 4000000 in
theorem H9_v65 (c : Dev nD) : W9 m ρ c (Proc.devRef .tc main_v65) = bias2 (Cert.ReferenceIdeal.Read.val_main_v52 (F := Ideal) (m ((c : Thread nD τ).loc main_arg7))) := by
  show StableHlo.after hostOps2 (W8 m ρ c) (Proc.devRef .tc main_v65) = _
  after_results_simp
  results_rw
  rw [E8_arg7 m ρ c]
  rfl

theorem E10_v66 (c : Dev nD) : W10 m ρ c (Proc.devRef .tc main_v66) = shapeCast S25000x128 (Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 :=
  (W10_arr m ρ c 3).trans ((Residual2.final (V9 m ρ) c (Cert.ReferenceIdeal.Read.val_main_v34 (F := Ideal) (m ((c : Thread nD τ).loc main_arg0)) (m ((c : Thread nD τ).loc main_arg4)) (m ((c : Thread nD τ).loc main_arg5))) (Cert.ReferenceIdeal.Read.val_main_v50 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (Cert.ReferenceIdeal.Read.val_main_v52 (F := Ideal) (m ((c : Thread nD τ).loc main_arg7))) (H9_v37 m ρ c) (H9_v59 m ρ c) (H9_v65 m ρ c)).trans
    (congrArg (fun X => shapeCast S25000x128 X shapeCasts_S50000x64_S25000x128) (res_eq57 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)))))
theorem E10_v1 (c : Dev nD) : W10 m ρ c (Proc.devRef .tc main_v1) = (Cert.ReferenceIdeal.Read.val_main_v1 (F := Ideal) (m ((c : Thread nD τ).loc main_arg1))) :=
  (W10_of_ne m ρ c main_v1 (by decide)).trans (by
    show StableHlo.after hostOps2 (W8 m ρ c) (Proc.devRef .tc main_v1) = _
    after_results_simp
    exact E8_v1 m ρ c)
theorem E10_v3 (c : Dev nD) : W10 m ρ c (Proc.devRef .tc main_v3) = (Cert.ReferenceIdeal.Read.val_main_v3 (F := Ideal) (m ((c : Thread nD τ).loc main_arg1))) :=
  (W10_of_ne m ρ c main_v3 (by decide)).trans (by
    show StableHlo.after hostOps2 (W8 m ρ c) (Proc.devRef .tc main_v3) = _
    after_results_simp
    exact E8_v3 m ρ c)
theorem E10_v29 (c : Dev nD) : W10 m ρ c (Proc.devRef .tc main_v29) = (Cert.ReferenceIdeal.Read.val_main_v29 (F := Ideal) (m ((c : Thread nD τ).loc main_arg1)) (m ((c : Thread nD τ).loc main_arg2))) :=
  (W10_of_ne m ρ c main_v29 (by decide)).trans (by
    show StableHlo.after hostOps2 (W8 m ρ c) (Proc.devRef .tc main_v29) = _
    after_results_simp
    exact E8_v29 m ρ c)
theorem E10_arg6 (c : Dev nD) : W10 m ρ c (Proc.devRef .tc main_arg6) = (m ((c : Thread nD τ).loc main_arg6)) :=
  (W10_of_ne m ρ c main_arg6 (by decide)).trans (by
    show StableHlo.after hostOps2 (W8 m ρ c) (Proc.devRef .tc main_arg6) = _
    after_results_simp
    exact E8_arg6 m ρ c)
theorem E10_arg7 (c : Dev nD) : W10 m ρ c (Proc.devRef .tc main_arg7) = (m ((c : Thread nD τ).loc main_arg7)) :=
  (W10_of_ne m ρ c main_arg7 (by decide)).trans (by
    show StableHlo.after hostOps2 (W8 m ρ c) (Proc.devRef .tc main_arg7) = _
    after_results_simp
    exact E8_arg7 m ρ c)

/-! ## The second conv layer's linear transform (region 3) -/

theorem H11_v66 (c : Dev nD) : W11 m ρ c (Proc.devRef .tc main_v66) = shapeCast S25000x128 (Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 := by
  show StableHlo.after hostOps3 (W10 m ρ c) (Proc.devRef .tc main_v66) = _
  after_results_simp
  exact E10_v66 m ρ c

set_option maxHeartbeats 8000000 in
theorem H11_v72 (c : Dev nD) : W11 m ρ c (Proc.devRef .tc main_v72) = blockDiag (Cert.ReferenceIdeal.Read.val_main_v59 (F := Ideal) (m ((c : Thread nD τ).loc main_arg6))) := by
  show StableHlo.after hostOps3 (W10 m ρ c) (Proc.devRef .tc main_v72) = _
  after_results_simp
  results_rw
  rw [E10_arg6 m ρ c]
  rfl

theorem E12_v73 (c : Dev nD) : W12 m ρ c (Proc.devRef .tc main_v73) = shapeCast S25000x128 (Cert.ReferenceIdeal.Read.val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 :=
  (W12_arr m ρ c 2).trans ((Linear3.final (V11 m ρ) c (Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (Cert.ReferenceIdeal.Read.val_main_v59 (F := Ideal) (m ((c : Thread nD τ).loc main_arg6))) (H11_v66 m ρ c) (H11_v72 m ρ c)).trans
    (congrArg (fun X => shapeCast S25000x128 X shapeCasts_S50000x64_S25000x128) (dot_eq60 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)))))
theorem E12_v1 (c : Dev nD) : W12 m ρ c (Proc.devRef .tc main_v1) = (Cert.ReferenceIdeal.Read.val_main_v1 (F := Ideal) (m ((c : Thread nD τ).loc main_arg1))) :=
  (W12_of_ne m ρ c main_v1 (by decide)).trans (by
    show StableHlo.after hostOps3 (W10 m ρ c) (Proc.devRef .tc main_v1) = _
    after_results_simp
    exact E10_v1 m ρ c)
theorem E12_v3 (c : Dev nD) : W12 m ρ c (Proc.devRef .tc main_v3) = (Cert.ReferenceIdeal.Read.val_main_v3 (F := Ideal) (m ((c : Thread nD τ).loc main_arg1))) :=
  (W12_of_ne m ρ c main_v3 (by decide)).trans (by
    show StableHlo.after hostOps3 (W10 m ρ c) (Proc.devRef .tc main_v3) = _
    after_results_simp
    exact E10_v3 m ρ c)
theorem E12_v29 (c : Dev nD) : W12 m ρ c (Proc.devRef .tc main_v29) = (Cert.ReferenceIdeal.Read.val_main_v29 (F := Ideal) (m ((c : Thread nD τ).loc main_arg1)) (m ((c : Thread nD τ).loc main_arg2))) :=
  (W12_of_ne m ρ c main_v29 (by decide)).trans (by
    show StableHlo.after hostOps3 (W10 m ρ c) (Proc.devRef .tc main_v29) = _
    after_results_simp
    exact E10_v29 m ρ c)
theorem E12_arg7 (c : Dev nD) : W12 m ρ c (Proc.devRef .tc main_arg7) = (m ((c : Thread nD τ).loc main_arg7)) :=
  (W12_of_ne m ρ c main_arg7 (by decide)).trans (by
    show StableHlo.after hostOps3 (W10 m ρ c) (Proc.devRef .tc main_arg7) = _
    after_results_simp
    exact E10_arg7 m ρ c)
theorem E12_v66 (c : Dev nD) : W12 m ρ c (Proc.devRef .tc main_v66) = shapeCast S25000x128 (Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 :=
  (W12_arr m ρ c 0).trans (((dat3 (V11 m ρ) c).arrAt_in 0 rfl cfg3.N).trans ((A_eq3 (V11 m ρ) c 0).trans (H11_v66 m ρ c)))

/-! ## The second conv layer's propagation on the host and its residual epilogue (region 4) -/

theorem H13_v66 (c : Dev nD) : W13 m ρ c (Proc.devRef .tc main_v66) = shapeCast S25000x128 (Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 := by
  show StableHlo.after hostOps4 (W12 m ρ c) (Proc.devRef .tc main_v66) = _
  after_results_simp
  exact E12_v66 m ρ c

set_option maxHeartbeats 4000000 in
theorem H13_v88 (c : Dev nD) : W13 m ρ c (Proc.devRef .tc main_v88) = shapeCast S25000x128 (Cert.ReferenceIdeal.Read.val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 := by
  show StableHlo.after hostOps4 (W12 m ρ c) (Proc.devRef .tc main_v88) = _
  after_results_simp
  rw [E12_v1 m ρ c, E12_v3 m ρ c, E12_v29 m ρ c, E12_v73 m ρ c]
  exact (congrArg (fun H => shapeCast S25000x128 (propagate (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v29 (F := Ideal) (m ((c : Thread nD τ).loc main_arg1)) (m ((c : Thread nD τ).loc main_arg2))) H) shapeCasts_S50000x64_S25000x128)
      (shapeCast_shapeCast (Cert.ReferenceIdeal.Read.val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 shapeCasts_S25000x128_S50000x64)).trans
    (congrArg (fun X => shapeCast S25000x128 X shapeCasts_S50000x64_S25000x128) (prop_eq73 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))))

set_option maxHeartbeats 4000000 in
theorem H13_v94 (c : Dev nD) : W13 m ρ c (Proc.devRef .tc main_v94) = bias2 (Cert.ReferenceIdeal.Read.val_main_v75 (F := Ideal) (m ((c : Thread nD τ).loc main_arg7))) := by
  show StableHlo.after hostOps4 (W12 m ρ c) (Proc.devRef .tc main_v94) = _
  after_results_simp
  results_rw
  rw [E12_arg7 m ρ c]
  rfl

theorem E14_v95 (c : Dev nD) : W14 m ρ c (Proc.devRef .tc main_v95) = shapeCast S25000x128 (Cert.ReferenceIdeal.Read.val_main_v80 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 :=
  (W14_arr m ρ c 3).trans ((Residual4.final (V13 m ρ) c (Cert.ReferenceIdeal.Read.val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (Cert.ReferenceIdeal.Read.val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (Cert.ReferenceIdeal.Read.val_main_v75 (F := Ideal) (m ((c : Thread nD τ).loc main_arg7))) (H13_v66 m ρ c) (H13_v88 m ρ c) (H13_v94 m ρ c)).trans
    (congrArg (fun X => shapeCast S25000x128 X shapeCasts_S50000x64_S25000x128) (res_eq80 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)))))

/-! ## The result: the last reshape back to node-major undoes the lane-dense view -/

/-- The kernel program's result buffer at the last boundary is the reference's last stage of the same arguments. -/
theorem result (c : Dev nD) : W15 m ρ c (Proc.devRef .tc main_v96) = (Cert.ReferenceIdeal.Read.val_main_v80 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  show StableHlo.after hostOps5 (W14 m ρ c) (Proc.devRef .tc main_v96) = _
  after_results_simp
  rw [E14_v95 m ρ c]
  exact shapeCast_shapeCast (Cert.ReferenceIdeal.Read.val_main_v80 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) shapeCasts_S50000x64_S25000x128 shapeCasts_S25000x128_S50000x64

end Cert.KernelIdeal.Stages

end
-- ==== Proof.lean ====
/-
  Two conv layers of a graph network over 50000 nodes and 1000000 edges, the dense parts computed in a lane-dense
  layout, against the plain node-major computation.

  Both programs compute, on the host and by the same operations, the symmetric edge normalisation
  norm = d^(-1/2)[src] · w · d^(-1/2)[dst] from the scatter-added degrees, and in each conv layer the gather of the
  transformed rows by source, the scaling by norm, and the scatter-add by destination. They differ in the dense parts:
  the reference computes relu (X W + b), H = Y W and Y + relu (A + b) on [50000, 64]; the kernel views every
  [50000, 64] array as [25000, 128] (two consecutive node rows side by side), multiplies by the block-diagonal
  diag(W, W), adds the doubled bias (b, b), and views the result back.

  On the extended reals the two agree exactly, whatever the inputs: the casts to bf16 in front of the matrix unit are
  identities; entry (r, q) of the lane-dense view is entry (2 r + q / 64, q mod 64) of the node-major array; in row r
  of X2 times diag(W, W), the 64 lanes of the other half meet the zero blocks and contribute 0 (a product with 0 is
  0 even at an infinity), leaving row 2 r + q / 64 of X against column q mod 64 of W; the bias and the relu are
  pointwise; and viewing back undoes the view. So each region leaves the lane-dense view of the reference's stage
  of the same arguments, the host operations between the regions are the reference's own applied to equal operands, and
  the kernel's result is the reference's last stage. The precondition is not used.

  The three frames are the generated ones (the reference's is its generated run with the result dropped); the ideal
  pass rewrote nothing, so `preserves` is trivial.
-/
import proofs.«136715_j45449343926354_2_alg».proof.Defs
import proofs.«136715_j45449343926354_2_alg».proof.Proof.Gen.Kernel
import proofs.«136715_j45449343926354_2_alg».proof.Proof.Gen.Kernel.Skeleton
import proofs.«136715_j45449343926354_2_alg».proof.Proof.Gen.Kernel.Launch
import proofs.«136715_j45449343926354_2_alg».proof.Proof.Gen.Kernel.Points
import proofs.«136715_j45449343926354_2_alg».proof.Proof.Gen.Kernel.Frame
import proofs.«136715_j45449343926354_2_alg».proof.Proof.Gen.KernelIdeal
import proofs.«136715_j45449343926354_2_alg».proof.Proof.Gen.KernelIdeal.Skeleton
import proofs.«136715_j45449343926354_2_alg».proof.Proof.Gen.KernelIdeal.Launch
import proofs.«136715_j45449343926354_2_alg».proof.Proof.Gen.KernelIdeal.Points
import proofs.«136715_j45449343926354_2_alg».proof.Proof.Gen.KernelIdeal.Frame
import proofs.«136715_j45449343926354_2_alg».proof.Proof.Gen.ReferenceIdeal
import proofs.«136715_j45449343926354_2_alg».proof.Proof.Gen.ReferenceIdeal.Run
import proofs.«136715_j45449343926354_2_alg».proof.Proof.Gen.ReferenceIdeal.Read
import proofs.«136715_j45449343926354_2_alg».proof.Proof.Gen.Pre_finite_inputs
import proofs.«136715_j45449343926354_2_alg».proof.Proof.KernelRun
import proofs.«136715_j45449343926354_2_alg».proof.Proof.Stages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the reference's last stage of the (agreeing) argument arrays. -/
theorem algebraic : Cert.algebraic_KernelIdeal_ReferenceIdeal := by
  intro m ρ m' ρ' _ hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.result m ρ c), (h c).2⟩)
      (Cert.KernelIdeal.Run.run_result m ρ)
  · refine (θ_run Cert.ReferenceIdeal.defs _ _).mono (fun r h c => ⟨?_, (h c).2⟩)
      (Cert.ReferenceIdeal.Value.run (F := Ideal) m' ρ')
    obtain ⟨e0, e1, e2, _, e4, e5, e6, e7⟩ := hagree c
    have hv : Cert.ReferenceIdeal.Read.val_main_v80 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      rw [e0, e1, e2, e4, e5, e6, e7]
    exact (h c).1.trans ((Cert.ReferenceIdeal.Read.val_main_v80_eq m' c).trans hv)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
